-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S64x96 : Shape := ⟨2, ![64, 96]⟩
abbrev S96 : Shape := ⟨1, ![96]⟩
abbrev S32x32 : Shape := ⟨2, ![32, 32]⟩
abbrev S32 : Shape := ⟨1, ![32]⟩
abbrev S128x192 : Shape := ⟨2, ![128, 192]⟩
abbrev S192 : Shape := ⟨1, ![192]⟩
abbrev S192x192 : Shape := ⟨2, ![192, 192]⟩
abbrev S192x2 : Shape := ⟨2, ![192, 2]⟩
abbrev S2 : Shape := ⟨1, ![2]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S128x192 : S_.BroadcastsInDim S128x192 (![] : Fin 0 → Fin S128x192.rank)
  reducesTo_S128x192_S_d0_1 : S128x192.ReducesTo [0, 1] S_
  bcast_S_S192 : S_.BroadcastsInDim S192 (![] : Fin 0 → Fin S192.rank)
  reducesTo_S192_S_d0 : S192.ReducesTo [0] S_
  bcast_S_S192x192 : S_.BroadcastsInDim S192x192 (![] : Fin 0 → Fin S192x192.rank)
  reducesTo_S192x192_S_d0_1 : S192x192.ReducesTo [0, 1] S_
  bcast_S_S192x2 : S_.BroadcastsInDim S192x2 (![] : Fin 0 → Fin S192x2.rank)
  reducesTo_S192x2_S_d0_1 : S192x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S192 .f32) (main_arg12 : FVec F S192x2 .f32) (main_arg13 : FVec F S2 .f32) (main_v48 : IVec S_ 1) (main_v49 : FVec F S192x192 .f32) (main_v50 : FVec F S192x192 .f32) : IVec S_ 1 :=
  let main_v51 : IVec S192x192 1 := cmpf .olt main_v49 main_v50
  let main_c_19 : IVec S_ 1 := constantI S_ 1 1#1
  let main_v52 : IVec S_ 1 := (fun x v => Host.reduce IntOp.andi x v reducesTo_S192x192_S_d0_1 h_S_) main_v51 main_c_19
  let main_v53 : IVec S_ 1 := andi main_v48 main_v52
  let main_v54 : FVec F S192 .f32 := Host.absf main_arg11
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  let main_v59 : FVec F S192x2 .f32 := Host.absf main_arg12
  let main_cst_22 : FVec F S_ .f32 := constant S_ .f32 0x7F800000#32
  let main_v60 : FVec F S192x2 .f32 := broadcastInDim S192x2 ![] bcast_S_S192x2 main_cst_22
  let main_v61 : IVec S192x2 1 := cmpf .olt main_v59 main_v60
  let main_c_23 : IVec S_ 1 := constantI S_ 1 1#1
  let main_v62 : IVec S_ 1 := (fun x v => Host.reduce IntOp.andi x v reducesTo_S192x2_S_d0_1 h_S_) main_v61 main_c_23
  let main_v63 : IVec S_ 1 := andi main_v58 main_v62
  let main_v64 : FVec F S2 .f32 := Host.absf main_arg13
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg7 : FVec F S192 .f32) (main_arg8 : FVec F S192x192 .f32) (main_arg9 : FVec F S192 .f32) (main_arg10 : FVec F S192x192 .f32) (main_arg11 : FVec F S192 .f32) (main_arg12 : FVec F S192x2 .f32) (main_arg13 : FVec F S2 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192x192 .f32 := Host.absf main_arg8
  let main_cst_14 : FVec F S_ .f32 := constant S_ .f32 0x7F800000#32
  let main_v40 : FVec F S192x192 .f32 := broadcastInDim S192x192 ![] bcast_S_S192x192 main_cst_14
  let main_v41 : IVec S192x192 1 := cmpf .olt main_v39 main_v40
  let main_c_15 : IVec S_ 1 := constantI S_ 1 1#1
  let main_v42 : IVec S_ 1 := (fun x v => Host.reduce IntOp.andi x v reducesTo_S192x192_S_d0_1 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S192x192 .f32 := Host.absf main_arg10
  let main_cst_18 : FVec F S_ .f32 := constant S_ .f32 0x7F800000#32
  let main_v50 : FVec F S192x192 .f32 := broadcastInDim S192x192 ![] bcast_S_S192x192 main_cst_18
  fn_part3 (F := F) main_arg11 main_arg12 main_arg13 main_v48 main_v49 main_v50

def fn_part1 {F : FTy → Type} [FloatOps F] (main_arg4 : FVec F S32x32 .f32) (main_arg5 : FVec F S32 .f32) (main_arg6 : FVec F S128x192 .f32) (main_arg7 : FVec F S192 .f32) (main_arg8 : FVec F S192x192 .f32) (main_arg9 : FVec F S192 .f32) (main_arg10 : FVec F S192x192 .f32) (main_arg11 : FVec F S192 .f32) (main_arg12 : FVec F S192x2 .f32) (main_arg13 : FVec F S2 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S128x192 .f32 := Host.absf main_arg6
  let main_cst_10 : FVec F S_ .f32 := constant S_ .f32 0x7F800000#32
  let main_v30 : FVec F S128x192 .f32 := broadcastInDim S128x192 ![] bcast_S_S128x192 main_cst_10
  let main_v31 : IVec S128x192 1 := cmpf .olt main_v29 main_v30
  let main_c_11 : IVec S_ 1 := constantI S_ 1 1#1
  let main_v32 : IVec S_ 1 := (fun x v => Host.reduce IntOp.andi x v reducesTo_S128x192_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x64 .f32) (main_arg1 : FVec F S800000x32 .f32) (main_arg2 : FVec F S64x96 .f32) (main_arg3 : FVec F S96 .f32) (main_arg4 : FVec F S32x32 .f32) (main_arg5 : FVec F S32 .f32) (main_arg6 : FVec F S128x192 .f32) (main_arg7 : FVec F S192 .f32) (main_arg8 : FVec F S192x192 .f32) (main_arg9 : FVec F S192 .f32) (main_arg10 : FVec F S192x192 .f32) (main_arg11 : FVec F S192 .f32) (main_arg12 : FVec F S192x2 .f32) (main_arg13 : FVec F S2 .f32) (main_arg14 : IVec S800000 32) (main_arg15 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S64x96 .f32 := Host.absf main_arg2
  let main_cst_2 : FVec F S_ .f32 := constant S_ .f32 0x7F800000#32
  let main_v10 : FVec F S64x96 .f32 := broadcastInDim S64x96 ![] bcast_S_S64x96 main_cst_2
  let main_v11 : IVec S64x96 1 := cmpf .olt main_v9 main_v10
  let main_c_3 : IVec S_ 1 := constantI S_ 1 1#1
  let main_v12 : IVec S_ 1 := (fun x v => Host.reduce IntOp.andi x v reducesTo_S64x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x64 : Shape := ⟨2, ![50000, 64]⟩
abbrev S800000x32 : Shape := ⟨2, ![800000, 32]⟩
abbrev S64x96 : Shape := ⟨2, ![64, 96]⟩
abbrev S96 : Shape := ⟨1, ![96]⟩
abbrev S32x32 : Shape := ⟨2, ![32, 32]⟩
abbrev S32 : Shape := ⟨1, ![32]⟩
abbrev S128x192 : Shape := ⟨2, ![128, 192]⟩
abbrev S192 : Shape := ⟨1, ![192]⟩
abbrev S192x192 : Shape := ⟨2, ![192, 192]⟩
abbrev S192x2 : Shape := ⟨2, ![192, 2]⟩
abbrev S2 : Shape := ⟨1, ![2]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x32 : Shape := ⟨2, ![1, 32]⟩
abbrev S16000x32 : Shape := ⟨2, ![16000, 32]⟩
abbrev S50000x32 : Shape := ⟨2, ![50000, 32]⟩
abbrev S50000x1 : Shape := ⟨2, ![50000, 1]⟩
abbrev S1x96 : Shape := ⟨2, ![1, 96]⟩
abbrev S50000x96 : Shape := ⟨2, ![50000, 96]⟩
abbrev S2000x64 : Shape := ⟨2, ![2000, 64]⟩
abbrev S2000x96 : Shape := ⟨2, ![2000, 96]⟩
abbrev S50000x128 : Shape := ⟨2, ![50000, 128]⟩
abbrev S800000x128 : Shape := ⟨2, ![800000, 128]⟩
abbrev S1x192 : Shape := ⟨2, ![1, 192]⟩
abbrev S50000x192 : Shape := ⟨2, ![50000, 192]⟩
abbrev S2000x128 : Shape := ⟨2, ![2000, 128]⟩
abbrev S2000x192 : Shape := ⟨2, ![2000, 192]⟩
abbrev S800000x192 : Shape := ⟨2, ![800000, 192]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 97
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S64x96, .f32⟩
  | .hbm, ⟨3, _⟩ => ⟨S96, .f32⟩
  | .hbm, ⟨4, _⟩ => ⟨S32x32, .f32⟩
  | .hbm, ⟨5, _⟩ => ⟨S32, .f32⟩
  | .hbm, ⟨6, _⟩ => ⟨S128x192, .f32⟩
  | .hbm, ⟨7, _⟩ => ⟨S192, .f32⟩
  | .hbm, ⟨8, _⟩ => ⟨S192x192, .f32⟩
  | .hbm, ⟨9, _⟩ => ⟨S192, .f32⟩
  | .hbm, ⟨10, _⟩ => ⟨S192x192, .f32⟩
  | .hbm, ⟨11, _⟩ => ⟨S192, .f32⟩
  | .hbm, ⟨12, _⟩ => ⟨S192x2, .f32⟩
  | .hbm, ⟨13, _⟩ => ⟨S2, .f32⟩
  | .hbm, ⟨14, _⟩ => ⟨S800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S1x32, .f32⟩
  | .hbm, ⟨37, _⟩ => ⟨S800000x32, .f32⟩
  | .hbm, ⟨38, _⟩ => ⟨S_, .f32⟩
  | .hbm, ⟨39, _⟩ => ⟨S50000x32, .f32⟩
  | .hbm, ⟨40, _⟩ => ⟨S800000x1, .i32⟩
  | .hbm, ⟨41, _⟩ => ⟨S50000x32, .f32⟩
  | .hbm, ⟨42, _⟩ => ⟨S50000x1, .f32⟩
  | .hbm, ⟨43, _⟩ => ⟨S50000x32, .f32⟩
  | .hbm, ⟨44, _⟩ => ⟨S50000x32, .f32⟩
  | .hbm, ⟨45, _⟩ => ⟨S_, .f32⟩
  | .hbm, ⟨46, _⟩ => ⟨S50000x32, .f32⟩
  | .hbm, ⟨47, _⟩ => ⟨S50000x32, .f32⟩
  | .hbm, ⟨48, _⟩ => ⟨S1x96, .f32⟩
  | .hbm, ⟨49, _⟩ => ⟨S50000x96, .f32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S1x192, .f32⟩
  | .hbm, ⟨71, _⟩ => ⟨S50000x192, .f32⟩
  | .hbm, ⟨72, _⟩ => ⟨S50000x1, .f32⟩
  | .hbm, ⟨73, _⟩ => ⟨S50000x192, .f32⟩
  | .hbm, ⟨74, _⟩ => ⟨S50000x192, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x192, .f32⟩
  | .hbm, ⟨84, _⟩ => ⟨S_, .f32⟩
  | .hbm, ⟨85, _⟩ => ⟨S50000x192, .f32⟩
  | .hbm, ⟨86, _⟩ => ⟨S800000x1, .i32⟩
  | .hbm, ⟨87, _⟩ => ⟨S50000x192, .f32⟩
  | .hbm, ⟨88, _⟩ => ⟨S50000x1, .f32⟩
  | .hbm, ⟨89, _⟩ => ⟨S50000x192, .f32⟩
  | .hbm, ⟨90, _⟩ => ⟨S50000x192, .f32⟩
  | .hbm, ⟨91, _⟩ => ⟨S1x192, .f32⟩
  | .hbm, ⟨92, _⟩ => ⟨S50000x192, .f32⟩
  | .hbm, ⟨93, _⟩ => ⟨S1x192, .f32⟩
  | .hbm, ⟨94, _⟩ => ⟨S50000x192, .f32⟩
  | .hbm, ⟨95, _⟩ => ⟨S1x2, .f32⟩
  | .hbm, ⟨96, _⟩ => ⟨S50000x2, .f32⟩
  | .local _ .vmem, ⟨0, _⟩ => ⟨S16000x32, .f32⟩
  | .local _ .vmem, ⟨1, _⟩ => ⟨S16000x32, .f32⟩
  | .local _ .vmem, ⟨2, _⟩ => ⟨S32x32, .f32⟩
  | .local _ .vmem, ⟨3, _⟩ => ⟨S1x32, .f32⟩
  | .local _ .vmem, ⟨4, _⟩ => ⟨S16000x32, .f32⟩
  | .local _ .vmem, ⟨5, _⟩ => ⟨S16000x32, .f32⟩
  | .local _ .vmem, ⟨6, _⟩ => ⟨S2000x64, .f32⟩
  | .local _ .vmem, ⟨7, _⟩ => ⟨S2000x64, .f32⟩
  | .local _ .vmem, ⟨8, _⟩ => ⟨S64x96, .f32⟩
  | .local _ .vmem, ⟨9, _⟩ => ⟨S1x96, .f32⟩
  | .local _ .vmem, ⟨10, _⟩ => ⟨S2000x96, .f32⟩
  | .local _ .vmem, ⟨11, _⟩ => ⟨S2000x96, .f32⟩
  | .local _ .vmem, ⟨12, _⟩ => ⟨S2000x128, .f32⟩
  | .local _ .vmem, ⟨13, _⟩ => ⟨S2000x128, .f32⟩
  | .local _ .vmem, ⟨14, _⟩ => ⟨S128x192, .f32⟩
  | .local _ .vmem, ⟨15, _⟩ => ⟨S1x192, .f32⟩
  | .local _ .vmem, ⟨16, _⟩ => ⟨S2000x192, .f32⟩
  | .local _ .vmem, ⟨17, _⟩ => ⟨S2000x192, .f32⟩
  | .local _ .vmem, ⟨18, _⟩ => ⟨S2000x192, .f32⟩
  | .local _ .vmem, ⟨19, _⟩ => ⟨S2000x192, .f32⟩
  | .local _ .vmem, ⟨20, _⟩ => ⟨S192x192, .f32⟩
  | .local _ .vmem, ⟨21, _⟩ => ⟨S1x192, .f32⟩
  | .local _ .vmem, ⟨22, _⟩ => ⟨S2000x192, .f32⟩
  | .local _ .vmem, ⟨23, _⟩ => ⟨S2000x192, .f32⟩
  | .local _ .vmem, ⟨24, _⟩ => ⟨S2000x192, .f32⟩
  | .local _ .vmem, ⟨25, _⟩ => ⟨S2000x192, .f32⟩
  | .local _ .vmem, ⟨26, _⟩ => ⟨S192x192, .f32⟩
  | .local _ .vmem, ⟨27, _⟩ => ⟨S1x192, .f32⟩
  | .local _ .vmem, ⟨28, _⟩ => ⟨S2000x192, .f32⟩
  | .local _ .vmem, ⟨29, _⟩ => ⟨S2000x192, .f32⟩
  | .local _ .vmem, ⟨30, _⟩ => ⟨S2000x192, .f32⟩
  | .local _ .vmem, ⟨31, _⟩ => ⟨S2000x192, .f32⟩
  | .local _ .vmem, ⟨32, _⟩ => ⟨S192x2, .f32⟩
  | .local _ .vmem, ⟨33, _⟩ => ⟨S1x2, .f32⟩
  | .local _ .vmem, ⟨34, _⟩ => ⟨S2000x2, .f32⟩
  | .local _ .vmem, ⟨35, _⟩ => ⟨S2000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call2_cst : Ref sig .tc := ⟨.hbm, 45, rfl⟩
abbrev main_call2_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_6 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_7 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x192 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S192x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S32_S1x32 : S32.ShapeCasts S1x32
  inb_S16000x32_S16000x32_0_0 : ∀ a, (![0, 0] : Fin 2 → Nat) a + S16000x32.size a ≤ S16000x32.size a
  h_S16000x32 : 0 < S16000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  shapeCasts_S96_S1x96 : S96.ShapeCasts S1x96
  inb_S2000x64_S2000x64_0_0 : ∀ a, (![0, 0] : Fin 2 → Nat) a + S2000x64.size a ≤ S2000x64.size a
  h_S2000x64 : 0 < S2000x64.numel
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  concatenates_S50000x32_S50000x96_S50000x128_d1 : Shape.Concatenates [S50000x32, S50000x96] S50000x128 1
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S192_S1x192 : S192.ShapeCasts S1x192
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x192_S128x192_0_0 : ∀ a, (![0, 0] : Fin 2 → Nat) a + S128x192.size a ≤ S128x192.size a
  h_S128x192 : 0 < S128x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  inb_S2000x192_S2000x192_0_0 : ∀ a, (![0, 0] : Fin 2 → Nat) a + S2000x192.size a ≤ S2000x192.size a
  h_S2000x192 : 0 < S2000x192.numel
  bcast_S50000x1_S50000x192_0_1 : S50000x1.BroadcastsInDim S50000x192 (![0, 1] : Fin 2 → Fin S50000x192.rank)
  bcast_S_S50000x192 : S_.BroadcastsInDim S50000x192 (![] : Fin 0 → Fin S50000x192.rank)
  shapeCasts_S2000x192_S2000x192 : S2000x192.ShapeCasts S2000x192
  inb_S192x192_S192x192_0_0 : ∀ a, (![0, 0] : Fin 2 → Nat) a + S192x192.size a ≤ S192x192.size a
  h_S192x192 : 0 < S192x192.numel
  shapeCasts_S2_S1x2 : S2.ShapeCasts S1x2
  inb_S192x2_S192x2_0_0 : ∀ a, (![0, 0] : Fin 2 → Nat) a + S192x2.size a ≤ S192x2.size a
  h_S192x2 : 0 < S192x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  dot_S16000x32_S32x32_S16000x32_1_0_0_1_n_n_wf : DotDims.WF S16000x32 S32x32 S16000x32 [1] [0] [0] [1] [] []
  scatter_S50000x32_S800000x1_S800000x32_1_0_0_1_wf : ScatterDims.WF S50000x32 S800000x1 S800000x32 [1] [0] [0] 1
  dot_S2000x64_S64x96_S2000x96_1_0_0_1_n_n_wf : DotDims.WF S2000x64 S64x96 S2000x96 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x192_S2000x192_1_0_0_1_n_n_wf : DotDims.WF S2000x128 S128x192 S2000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S2000x192_S192x192_S2000x192_1_0_0_1_n_n_wf : DotDims.WF S2000x192 S192x192 S2000x192 [1] [0] [0] [1] [] []
  dot_S2000x192_S192x2_S2000x2_1_0_0_1_n_n_wf : DotDims.WF S2000x192 S192x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S800000x32.size a
  hwx0_0 : ∀ i : grid0.Coords, EltTy.bits .f32 = 32 ∨ (Rect.block (s := S800000x32) S16000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x32.size a ≤ S800000x32.size a
  hwx0_3 : ∀ i : grid0.Coords, EltTy.bits .f32 = 32 ∨ (Rect.block (s := S800000x32) S16000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x96.size a ≤ S64x96.size a
  hwx1_1 : ∀ i : grid1.Coords, EltTy.bits .f32 = 32 ∨ (Rect.block (s := S64x96) S64x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S50000x96.size a
  hwx1_3 : ∀ i : grid1.Coords, EltTy.bits .f32 = 32 ∨ (Rect.block (s := S50000x96) S2000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x192.size a ≤ S128x192.size a
  hwx2_1 : ∀ i : grid2.Coords, EltTy.bits .f32 = 32 ∨ (Rect.block (s := S128x192) S128x192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x192.size a ≤ S1x192.size a
  hwx2_2 : ∀ i : grid2.Coords, EltTy.bits .f32 = 32 ∨ (Rect.block (s := S1x192) S1x192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x192.size a ≤ S50000x192.size a
  hwx2_3 : ∀ i : grid2.Coords, EltTy.bits .f32 = 32 ∨ (Rect.block (s := S50000x192) S2000x192.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x192.size a ≤ S50000x192.size a
  hwx3_0 : ∀ i : grid3.Coords, EltTy.bits .f32 = 32 ∨ (Rect.block (s := S50000x192) S2000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x192.size a ≤ S192x192.size a
  hwx3_1 : ∀ i : grid3.Coords, EltTy.bits .f32 = 32 ∨ (Rect.block (s := S192x192) S192x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x192.size a ≤ S1x192.size a
  hwx3_2 : ∀ i : grid3.Coords, EltTy.bits .f32 = 32 ∨ (Rect.block (s := S1x192) S1x192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x192.size a ≤ S50000x192.size a
  hwx3_3 : ∀ i : grid3.Coords, EltTy.bits .f32 = 32 ∨ (Rect.block (s := S50000x192) S2000x192.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x192.size a ≤ S50000x192.size a
  hwx4_0 : ∀ i : grid4.Coords, EltTy.bits .f32 = 32 ∨ (Rect.block (s := S50000x192) S2000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x192.size a ≤ S192x192.size a
  hwx4_1 : ∀ i : grid4.Coords, EltTy.bits .f32 = 32 ∨ (Rect.block (s := S192x192) S192x192.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x192.size a ≤ S1x192.size a
  hwx4_2 : ∀ i : grid4.Coords, EltTy.bits .f32 = 32 ∨ (Rect.block (s := S1x192) S1x192.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x192.size a ≤ S50000x192.size a
  hwx4_3 : ∀ i : grid4.Coords, EltTy.bits .f32 = 32 ∨ (Rect.block (s := S50000x192) S2000x192.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x192.size a ≤ S50000x192.size a
  hwx5_0 : ∀ i : grid5.Coords, EltTy.bits .f32 = 32 ∨ (Rect.block (s := S50000x192) S2000x192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S192x2.size a ≤ S192x2.size a
  hwx5_1 : ∀ i : grid5.Coords, EltTy.bits .f32 = 32 ∨ (Rect.block (s := S192x2) S192x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x2.size a ≤ S50000x2.size a
  hwx5_3 : ∀ i : grid5.Coords, EltTy.bits .f32 = 32 ∨ (Rect.block (s := S50000x2) S2000x2.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S16000x32_S32x32_S16000x32_1_0_0_1_n_n : DotDims S16000x32 S32x32 S16000x32 where
  lhsContracting := [1]
  rhsContracting := [0]
  lhsNonContracting := [0]
  rhsNonContracting := [1]
  lhsBatch := []
  rhsBatch := []
  wf := dot_S16000x32_S32x32_S16000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S2000x64_S64x96_S2000x96_1_0_0_1_n_n : DotDims S2000x64 S64x96 S2000x96 where
  lhsContracting := [1]
  rhsContracting := [0]
  lhsNonContracting := [0]
  rhsNonContracting := [1]
  lhsBatch := []
  rhsBatch := []
  wf := dot_S2000x64_S64x96_S2000x96_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x192_S2000x192_1_0_0_1_n_n : DotDims S2000x128 S128x192 S2000x192 where
  lhsContracting := [1]
  rhsContracting := [0]
  lhsNonContracting := [0]
  rhsNonContracting := [1]
  lhsBatch := []
  rhsBatch := []
  wf := dot_S2000x128_S128x192_S2000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S2000x192_S192x192_S2000x192_1_0_0_1_n_n : DotDims S2000x192 S192x192 S2000x192 where
  lhsContracting := [1]
  rhsContracting := [0]
  lhsNonContracting := [0]
  rhsNonContracting := [1]
  lhsBatch := []
  rhsBatch := []
  wf := dot_S2000x192_S192x192_S2000x192_1_0_0_1_n_n_wf
def dot_S2000x192_S192x2_S2000x2_1_0_0_1_n_n : DotDims S2000x192 S192x2 S2000x2 where
  lhsContracting := [1]
  rhsContracting := [0]
  lhsNonContracting := [0]
  rhsNonContracting := [1]
  lhsBatch := []
  rhsBatch := []
  wf := dot_S2000x192_S192x2_S2000x2_1_0_0_1_n_n_wf

abbrev win0_0 : Pipeline.Window sig grid0 :=
  Pipeline.Window.ofSpec (Memref.whole main_arg1) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S2000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v56) S2000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S192x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v58) S2000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S192x192.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x192.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S2000x192.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v60) S2000x192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S192x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S2000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S64x96 : Shape := ⟨2, ![64, 96]⟩
abbrev S96 : Shape := ⟨1, ![96]⟩
abbrev S32x32 : Shape := ⟨2, ![32, 32]⟩
abbrev S32 : Shape := ⟨1, ![32]⟩
abbrev S128x192 : Shape := ⟨2, ![128, 192]⟩
abbrev S192 : Shape := ⟨1, ![192]⟩
abbrev S192x192 : Shape := ⟨2, ![192, 192]⟩
abbrev S192x2 : Shape := ⟨2, ![192, 2]⟩
abbrev S2 : Shape := ⟨1, ![2]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x32 : Shape := ⟨2, ![1, 32]⟩
abbrev S50000x32 : Shape := ⟨2, ![50000, 32]⟩
abbrev S50000x1 : Shape := ⟨2, ![50000, 1]⟩
abbrev S50000x96 : Shape := ⟨2, ![50000, 96]⟩
abbrev S1x96 : Shape := ⟨2, ![1, 96]⟩
abbrev S50000x128 : Shape := ⟨2, ![50000, 128]⟩
abbrev S800000x128 : Shape := ⟨2, ![800000, 128]⟩
abbrev S50000x192 : Shape := ⟨2, ![50000, 192]⟩
abbrev S1x192 : Shape := ⟨2, ![1, 192]⟩
abbrev S800000x192 : Shape := ⟨2, ![800000, 192]⟩
abbrev S50000x2 : Shape := ⟨2, ![50000, 2]⟩
abbrev S1x2 : Shape := ⟨2, ![1, 2]⟩

abbrev nBuf : Space → Nat
  | .hbm => 121
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S64x96, .f32⟩
  | .hbm, ⟨3, _⟩ => ⟨S96, .f32⟩
  | .hbm, ⟨4, _⟩ => ⟨S32x32, .f32⟩
  | .hbm, ⟨5, _⟩ => ⟨S32, .f32⟩
  | .hbm, ⟨6, _⟩ => ⟨S128x192, .f32⟩
  | .hbm, ⟨7, _⟩ => ⟨S192, .f32⟩
  | .hbm, ⟨8, _⟩ => ⟨S192x192, .f32⟩
  | .hbm, ⟨9, _⟩ => ⟨S192, .f32⟩
  | .hbm, ⟨10, _⟩ => ⟨S192x192, .f32⟩
  | .hbm, ⟨11, _⟩ => ⟨S192, .f32⟩
  | .hbm, ⟨12, _⟩ => ⟨S192x2, .f32⟩
  | .hbm, ⟨13, _⟩ => ⟨S2, .f32⟩
  | .hbm, ⟨14, _⟩ => ⟨S800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S800000x32, .f32⟩
  | .hbm, ⟨37, _⟩ => ⟨S1x32, .f32⟩
  | .hbm, ⟨38, _⟩ => ⟨S800000x32, .f32⟩
  | .hbm, ⟨39, _⟩ => ⟨S800000x32, .f32⟩
  | .hbm, ⟨40, _⟩ => ⟨S_, .f32⟩
  | .hbm, ⟨41, _⟩ => ⟨S50000x32, .f32⟩
  | .hbm, ⟨42, _⟩ => ⟨S800000x1, .i32⟩
  | .hbm, ⟨43, _⟩ => ⟨S50000x32, .f32⟩
  | .hbm, ⟨44, _⟩ => ⟨S50000x1, .f32⟩
  | .hbm, ⟨45, _⟩ => ⟨S50000x32, .f32⟩
  | .hbm, ⟨46, _⟩ => ⟨S50000x32, .f32⟩
  | .hbm, ⟨47, _⟩ => ⟨S_, .f32⟩
  | .hbm, ⟨48, _⟩ => ⟨S50000x32, .f32⟩
  | .hbm, ⟨49, _⟩ => ⟨S50000x32, .f32⟩
  | .hbm, ⟨50, _⟩ => ⟨S50000x96, .f32⟩
  | .hbm, ⟨51, _⟩ => ⟨S1x96, .f32⟩
  | .hbm, ⟨52, _⟩ => ⟨S50000x96, .f32⟩
  | .hbm, ⟨53, _⟩ => ⟨S50000x96, .f32⟩
  | .hbm, ⟨54, _⟩ => ⟨S_, .f32⟩
  | .hbm, ⟨55, _⟩ => ⟨S50000x96, .f32⟩
  | .hbm, ⟨56, _⟩ => ⟨S50000x96, .f32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x192, .f32⟩
  | .hbm, ⟨78, _⟩ => ⟨S1x192, .f32⟩
  | .hbm, ⟨79, _⟩ => ⟨S50000x192, .f32⟩
  | .hbm, ⟨80, _⟩ => ⟨S50000x192, .f32⟩
  | .hbm, ⟨81, _⟩ => ⟨S_, .f32⟩
  | .hbm, ⟨82, _⟩ => ⟨S50000x192, .f32⟩
  | .hbm, ⟨83, _⟩ => ⟨S50000x192, .f32⟩
  | .hbm, ⟨84, _⟩ => ⟨S50000x1, .f32⟩
  | .hbm, ⟨85, _⟩ => ⟨S50000x192, .f32⟩
  | .hbm, ⟨86, _⟩ => ⟨S50000x192, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x192, .f32⟩
  | .hbm, ⟨96, _⟩ => ⟨S_, .f32⟩
  | .hbm, ⟨97, _⟩ => ⟨S50000x192, .f32⟩
  | .hbm, ⟨98, _⟩ => ⟨S800000x1, .i32⟩
  | .hbm, ⟨99, _⟩ => ⟨S50000x192, .f32⟩
  | .hbm, ⟨100, _⟩ => ⟨S50000x1, .f32⟩
  | .hbm, ⟨101, _⟩ => ⟨S50000x192, .f32⟩
  | .hbm, ⟨102, _⟩ => ⟨S50000x192, .f32⟩
  | .hbm, ⟨103, _⟩ => ⟨S50000x192, .f32⟩
  | .hbm, ⟨104, _⟩ => ⟨S1x192, .f32⟩
  | .hbm, ⟨105, _⟩ => ⟨S50000x192, .f32⟩
  | .hbm, ⟨106, _⟩ => ⟨S50000x192, .f32⟩
  | .hbm, ⟨107, _⟩ => ⟨S_, .f32⟩
  | .hbm, ⟨108, _⟩ => ⟨S50000x192, .f32⟩
  | .hbm, ⟨109, _⟩ => ⟨S50000x192, .f32⟩
  | .hbm, ⟨110, _⟩ => ⟨S50000x192, .f32⟩
  | .hbm, ⟨111, _⟩ => ⟨S1x192, .f32⟩
  | .hbm, ⟨112, _⟩ => ⟨S50000x192, .f32⟩
  | .hbm, ⟨113, _⟩ => ⟨S50000x192, .f32⟩
  | .hbm, ⟨114, _⟩ => ⟨S_, .f32⟩
  | .hbm, ⟨115, _⟩ => ⟨S50000x192, .f32⟩
  | .hbm, ⟨116, _⟩ => ⟨S50000x192, .f32⟩
  | .hbm, ⟨117, _⟩ => ⟨S50000x2, .f32⟩
  | .hbm, ⟨118, _⟩ => ⟨S1x2, .f32⟩
  | .hbm, ⟨119, _⟩ => ⟨S50000x2, .f32⟩
  | .hbm, ⟨120, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call2_cst : Ref sig .tc := ⟨.hbm, 47, rfl⟩
abbrev main_call2_v0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_call3_cst : Ref sig .tc := ⟨.hbm, 54, rfl⟩
abbrev main_call3_v0 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call4_cst : Ref sig .tc := ⟨.hbm, 81, rfl⟩
abbrev main_call4_v0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_7 : Ref sig .tc := ⟨.hbm, 87, rfl⟩
abbrev main_v52 : Ref sig .tc := ⟨.hbm, 88, rfl⟩
abbrev main_v53 : Ref sig .tc := ⟨.hbm, 89, rfl⟩
abbrev main_c_8 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call5_cst : Ref sig .tc := ⟨.hbm, 107, rfl⟩
abbrev main_call5_v0 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_call6_cst : Ref sig .tc := ⟨.hbm, 114, rfl⟩
abbrev main_call6_v0 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  concatenates_S50000x32_S50000x96_S50000x128_d1 : Shape.Concatenates [S50000x32, S50000x96] S50000x128 1
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S_S50000x192 : S_.BroadcastsInDim S50000x192 (![] : Fin 0 → Fin S50000x192.rank)
  bcast_S50000x1_S50000x192_0_1 : S50000x1.BroadcastsInDim S50000x192 (![0, 1] : Fin 2 → Fin S50000x192.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  dot_S800000x32_S32x32_S800000x32_1_0_0_1_n_n_wf : DotDims.WF S800000x32 S32x32 S800000x32 [1] [0] [0] [1] [] []
  scatter_S50000x32_S800000x1_S800000x32_1_0_0_1_wf : ScatterDims.WF S50000x32 S800000x1 S800000x32 [1] [0] [0] 1
  dot_S50000x64_S64x96_S50000x96_1_0_0_1_n_n_wf : DotDims.WF S50000x64 S64x96 S50000x96 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x192_S50000x192_1_0_0_1_n_n_wf : DotDims.WF S50000x128 S128x192 S50000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S50000x192_S192x192_S50000x192_1_0_0_1_n_n_wf : DotDims.WF S50000x192 S192x192 S50000x192 [1] [0] [0] [1] [] []
  dot_S50000x192_S192x2_S50000x2_1_0_0_1_n_n_wf : DotDims.WF S50000x192 S192x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x64_S64x96_S50000x96_1_0_0_1_n_n : DotDims S50000x64 S64x96 S50000x96 where
  lhsContracting := [1]
  rhsContracting := [0]
  lhsNonContracting := [0]
  rhsNonContracting := [1]
  lhsBatch := []
  rhsBatch := []
  wf := dot_S50000x64_S64x96_S50000x96_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x192_S50000x192_1_0_0_1_n_n : DotDims S50000x128 S128x192 S50000x192 where
  lhsContracting := [1]
  rhsContracting := [0]
  lhsNonContracting := [0]
  rhsNonContracting := [1]
  lhsBatch := []
  rhsBatch := []
  wf := dot_S50000x128_S128x192_S50000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S50000x192_S192x192_S50000x192_1_0_0_1_n_n : DotDims S50000x192 S192x192 S50000x192 where
  lhsContracting := [1]
  rhsContracting := [0]
  lhsNonContracting := [0]
  rhsNonContracting := [1]
  lhsBatch := []
  rhsBatch := []
  wf := dot_S50000x192_S192x192_S50000x192_1_0_0_1_n_n_wf
def dot_S50000x192_S192x2_S50000x2_1_0_0_1_n_n : DotDims S50000x192 S192x2 S50000x2 where
  lhsContracting := [1]
  rhsContracting := [0]
  lhsNonContracting := [0]
  rhsNonContracting := [1]
  lhsBatch := []
  rhsBatch := []
  wf := dot_S50000x192_S192x2_S50000x2_1_0_0_1_n_n_wf

class Facts : Prop extends Facts₀ where

variable [Facts]
-- ==== Proof.KernelRun.lean ====
/-
  The idealized kernel's run with its result named.

  The program is six launches among stretches of host operations. Its buffers' contents at every boundary are a fold
  from the launch memory: a stretch applies its operations, a launch leaves in each of its arrays what its write-backs
  leave. At the end every buffer that outlives the run holds the last boundary's contents; read at the result buffer
  that is the sixth launch's output array, and read at an argument it is the argument as launched.
-/
import proofs.«155925_j35089882808747_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v62) = W18 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v62 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c)⟩)

end Cert.KernelIdeal.Named

end
-- ==== Proof.Walk.lean ====
/-
  Reading the fold of buffer contents through the program.

  The contents of the idealized kernel's buffers at each boundary of its program are a fold from the launch memory:
  a stretch of host operations writes each operation's result into its own buffer and leaves every other buffer
  alone, and a launch changes only its own arrays. So the contents of a buffer at a boundary are found by walking
  back: through a launch that does not own the buffer, to the launch's entry; through a stretch, to the operation
  that wrote the buffer (its function of its operands' contents, found the same way) or, if none did, to the
  stretch's entry; and at the launch memory, to the argument as launched. Operations of an outlined function carry
  their operands through a change of type that is the identity.
-/
import proofs.«155925_j35089882808747_1_alg».proof.Proof.Gen.KernelIdeal.Frame
import Idealize.ShloMosaic.Lib.StableHlo.Run
import Idealize.ShloMosaic.PureOps.Ideal

noncomputable section

namespace Cert.KernelIdeal.Walk

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## A launch leaves every buffer that is not one of its arrays as it found it -/

theorem W6_skip (c : Dev nD) (b : Ref sig .tc) (hb : ∀ w, Pipeline.arrRef spec0 w ≠ b) :
    W6 m ρ c (no_index (Proc.devRef .tc b)) = W5 m ρ c (Proc.devRef .tc b) := W6_of_ne m ρ c b hb
theorem W10_skip (c : Dev nD) (b : Ref sig .tc) (hb : ∀ w, Pipeline.arrRef spec1 w ≠ b) :
    W10 m ρ c (no_index (Proc.devRef .tc b)) = W9 m ρ c (Proc.devRef .tc b) := W10_of_ne m ρ c b hb
theorem W12_skip (c : Dev nD) (b : Ref sig .tc) (hb : ∀ w, Pipeline.arrRef spec2 w ≠ b) :
    W12 m ρ c (no_index (Proc.devRef .tc b)) = W11 m ρ c (Proc.devRef .tc b) := W12_of_ne m ρ c b hb
theorem W14_skip (c : Dev nD) (b : Ref sig .tc) (hb : ∀ w, Pipeline.arrRef spec3 w ≠ b) :
    W14 m ρ c (no_index (Proc.devRef .tc b)) = W13 m ρ c (Proc.devRef .tc b) := W14_of_ne m ρ c b hb
theorem W16_skip (c : Dev nD) (b : Ref sig .tc) (hb : ∀ w, Pipeline.arrRef spec4 w ≠ b) :
    W16 m ρ c (no_index (Proc.devRef .tc b)) = W15 m ρ c (Proc.devRef .tc b) := W16_of_ne m ρ c b hb
theorem W18_skip (c : Dev nD) (b : Ref sig .tc) (hb : ∀ w, Pipeline.arrRef spec5 w ≠ b) :
    W18 m ρ c (no_index (Proc.devRef .tc b)) = W17 m ρ c (Proc.devRef .tc b) := W18_of_ne m ρ c b hb

/-- At the launch memory a buffer holds what the program was launched with. -/
theorem W0_read (c : Dev nD) (b : Ref sig .tc) :
    W0 m ρ c (no_index (Proc.devRef .tc b)) = m ((c : Thread nD τ).loc b) := rfl

/-! ## The change of type around an outlined function's operands is the identity -/

theorem ofBuf_toBuf {T : BufTy} (x : TRef sig T) (v : T.Contents (Elt F)) : x.ofBuf (x.toBuf v) = v := by
  obtain ⟨r, h, p2, p3⟩ := x
  subst h
  rfl

theorem toBuf_main_cst_1 (p1 p2 p3) (v : (⟨S_, .f32⟩ : BufTy).Contents (Elt Ideal)) :
    (TRef.of main_cst_1 p1 p2 p3 : TRef sig ⟨S_, .f32⟩).toBuf v = v := rfl
theorem ofBuf_main_cst_1 (p1 p2 p3) (v : (⟨S_, .f32⟩ : BufTy).Contents (Elt Ideal)) :
    (TRef.of main_cst_1 p1 p2 p3 : TRef sig ⟨S_, .f32⟩).ofBuf v = v := rfl
theorem toBuf_main_call0_v0 (p1 p2 p3) (v : (⟨S_, .f32⟩ : BufTy).Contents (Elt Ideal)) :
    (TRef.of main_call0_v0 p1 p2 p3 : TRef sig ⟨S_, .f32⟩).toBuf v = v := rfl
theorem ofBuf_main_call0_v0 (p1 p2 p3) (v : (⟨S_, .f32⟩ : BufTy).Contents (Elt Ideal)) :
    (TRef.of main_call0_v0 p1 p2 p3 : TRef sig ⟨S_, .f32⟩).ofBuf v = v := rfl
theorem toBuf_main_call0_v1 (p1 p2 p3) (v : (⟨S50000, .f32⟩ : BufTy).Contents (Elt Ideal)) :
    (TRef.of main_call0_v1 p1 p2 p3 : TRef sig ⟨S50000, .f32⟩).toBuf v = v := rfl
theorem ofBuf_main_call0_v1 (p1 p2 p3) (v : (⟨S50000, .f32⟩ : BufTy).Contents (Elt Ideal)) :
    (TRef.of main_call0_v1 p1 p2 p3 : TRef sig ⟨S50000, .f32⟩).ofBuf v = v := rfl
theorem toBuf_main_v3 (p1 p2 p3) (v : (⟨S50000, .f32⟩ : BufTy).Contents (Elt Ideal)) :
    (TRef.of main_v3 p1 p2 p3 : TRef sig ⟨S50000, .f32⟩).toBuf v = v := rfl
theorem ofBuf_main_v3 (p1 p2 p3) (v : (⟨S50000, .f32⟩ : BufTy).Contents (Elt Ideal)) :
    (TRef.of main_v3 p1 p2 p3 : TRef sig ⟨S50000, .f32⟩).ofBuf v = v := rfl
theorem toBuf_main_v4 (p1 p2 p3) (v : (⟨S50000, .f32⟩ : BufTy).Contents (Elt Ideal)) :
    (TRef.of main_v4 p1 p2 p3 : TRef sig ⟨S50000, .f32⟩).toBuf v = v := rfl
theorem ofBuf_main_v4 (p1 p2 p3) (v : (⟨S50000, .f32⟩ : BufTy).Contents (Elt Ideal)) :
    (TRef.of main_v4 p1 p2 p3 : TRef sig ⟨S50000, .f32⟩).ofBuf v = v := rfl
theorem toBuf_main_cst_3 (p1 p2 p3) (v : (⟨S_, .f32⟩ : BufTy).Contents (Elt Ideal)) :
    (TRef.of main_cst_3 p1 p2 p3 : TRef sig ⟨S_, .f32⟩).toBuf v = v := rfl
theorem ofBuf_main_cst_3 (p1 p2 p3) (v : (⟨S_, .f32⟩ : BufTy).Contents (Elt Ideal)) :
    (TRef.of main_cst_3 p1 p2 p3 : TRef sig ⟨S_, .f32⟩).ofBuf v = v := rfl
theorem toBuf_main_call1_v0 (p1 p2 p3) (v : (⟨S_, .f32⟩ : BufTy).Contents (Elt Ideal)) :
    (TRef.of main_call1_v0 p1 p2 p3 : TRef sig ⟨S_, .f32⟩).toBuf v = v := rfl
theorem ofBuf_main_call1_v0 (p1 p2 p3) (v : (⟨S_, .f32⟩ : BufTy).Contents (Elt Ideal)) :
    (TRef.of main_call1_v0 p1 p2 p3 : TRef sig ⟨S_, .f32⟩).ofBuf v = v := rfl
theorem toBuf_main_call1_v1 (p1 p2 p3) (v : (⟨S50000, .f32⟩ : BufTy).Contents (Elt Ideal)) :
    (TRef.of main_call1_v1 p1 p2 p3 : TRef sig ⟨S50000, .f32⟩).toBuf v = v := rfl
theorem ofBuf_main_call1_v1 (p1 p2 p3) (v : (⟨S50000, .f32⟩ : BufTy).Contents (Elt Ideal)) :
    (TRef.of main_call1_v1 p1 p2 p3 : TRef sig ⟨S50000, .f32⟩).ofBuf v = v := rfl
theorem toBuf_main_v7 (p1 p2 p3) (v : (⟨S50000, .f32⟩ : BufTy).Contents (Elt Ideal)) :
    (TRef.of main_v7 p1 p2 p3 : TRef sig ⟨S50000, .f32⟩).toBuf v = v := rfl
theorem ofBuf_main_v7 (p1 p2 p3) (v : (⟨S50000, .f32⟩ : BufTy).Contents (Elt Ideal)) :
    (TRef.of main_v7 p1 p2 p3 : TRef sig ⟨S50000, .f32⟩).ofBuf v = v := rfl
theorem toBuf_main_v8 (p1 p2 p3) (v : (⟨S50000, .f32⟩ : BufTy).Contents (Elt Ideal)) :
    (TRef.of main_v8 p1 p2 p3 : TRef sig ⟨S50000, .f32⟩).toBuf v = v := rfl
theorem ofBuf_main_v8 (p1 p2 p3) (v : (⟨S50000, .f32⟩ : BufTy).Contents (Elt Ideal)) :
    (TRef.of main_v8 p1 p2 p3 : TRef sig ⟨S50000, .f32⟩).ofBuf v = v := rfl
theorem toBuf_main_call2_cst (p1 p2 p3) (v : (⟨S_, .f32⟩ : BufTy).Contents (Elt Ideal)) :
    (TRef.of main_call2_cst p1 p2 p3 : TRef sig ⟨S_, .f32⟩).toBuf v = v := rfl
theorem ofBuf_main_call2_cst (p1 p2 p3) (v : (⟨S_, .f32⟩ : BufTy).Contents (Elt Ideal)) :
    (TRef.of main_call2_cst p1 p2 p3 : TRef sig ⟨S_, .f32⟩).ofBuf v = v := rfl
theorem toBuf_main_call2_v0 (p1 p2 p3) (v : (⟨S50000x32, .f32⟩ : BufTy).Contents (Elt Ideal)) :
    (TRef.of main_call2_v0 p1 p2 p3 : TRef sig ⟨S50000x32, .f32⟩).toBuf v = v := rfl
theorem ofBuf_main_call2_v0 (p1 p2 p3) (v : (⟨S50000x32, .f32⟩ : BufTy).Contents (Elt Ideal)) :
    (TRef.of main_call2_v0 p1 p2 p3 : TRef sig ⟨S50000x32, .f32⟩).ofBuf v = v := rfl
theorem toBuf_main_v18 (p1 p2 p3) (v : (⟨S50000x32, .f32⟩ : BufTy).Contents (Elt Ideal)) :
    (TRef.of main_v18 p1 p2 p3 : TRef sig ⟨S50000x32, .f32⟩).toBuf v = v := rfl
theorem ofBuf_main_v18 (p1 p2 p3) (v : (⟨S50000x32, .f32⟩ : BufTy).Contents (Elt Ideal)) :
    (TRef.of main_v18 p1 p2 p3 : TRef sig ⟨S50000x32, .f32⟩).ofBuf v = v := rfl
theorem toBuf_main_v19 (p1 p2 p3) (v : (⟨S50000x32, .f32⟩ : BufTy).Contents (Elt Ideal)) :
    (TRef.of main_v19 p1 p2 p3 : TRef sig ⟨S50000x32, .f32⟩).toBuf v = v := rfl
theorem ofBuf_main_v19 (p1 p2 p3) (v : (⟨S50000x32, .f32⟩ : BufTy).Contents (Elt Ideal)) :
    (TRef.of main_v19 p1 p2 p3 : TRef sig ⟨S50000x32, .f32⟩).ofBuf v = v := rfl

/-- Walk a buffer's contents back through stretches and launches to the launch memory or to a launch's array. -/
macro "walk_back" : tactic =>
  `(tactic| simp (disch := decide) only [W1, W2, W3, W4, W5, W7, W8, W9, W11, W13, W15, W17, V5, V6, V9, V10, V11, V12, V13, V14, V15, V16, V17, V18, hostOps0, hostOps0_1, hostOps0_2, hostOps0_3, hostOps0_4, hostOps1, hostOps1_1, hostOps1_2, hostOps2, hostOps3, hostOps4, hostOps5, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      W6_skip, W10_skip, W12_skip, W14_skip, W16_skip, W18_skip, W0_read,
      ofBuf_toBuf, toBuf_main_cst_1, ofBuf_main_cst_1, toBuf_main_call0_v0, ofBuf_main_call0_v0, toBuf_main_call0_v1, ofBuf_main_call0_v1, toBuf_main_v3, ofBuf_main_v3, toBuf_main_v4, ofBuf_main_v4, toBuf_main_cst_3, ofBuf_main_cst_3, toBuf_main_call1_v0, ofBuf_main_call1_v0, toBuf_main_call1_v1, ofBuf_main_call1_v1, toBuf_main_v7, ofBuf_main_v7, toBuf_main_v8, ofBuf_main_v8, toBuf_main_call2_cst, ofBuf_main_call2_cst, toBuf_main_call2_v0, ofBuf_main_call2_v0, toBuf_main_v18, ofBuf_main_v18, toBuf_main_v19, ofBuf_main_v19])

end Cert.KernelIdeal.Walk

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«155925_j35089882808747_1_alg».proof.Proof.LibPlainMatmul
import proofs.«155925_j35089882808747_1_alg».proof.Proof.LibHostReads
import proofs.«155925_j35089882808747_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowLayers.lean ====
/-
  Layers of a dense network read on picked rows, one operation at a time.

  A block of TM rows is cut out of a tall matrix of M rows by a map ρ of row numbers (Cert.BlockRows.rowsOf). Each
  lemma below takes an operand that IS the picked rows of some tall matrix (an equation, so that the lemma applies to
  whatever expression the operand is spelled as) and says that one more operation on it gives the picked rows of the
  host's operation on the tall matrix:

  * a bias given as a matrix B of ONE row, broadcast down the block, against the same row broadcast down all M rows;
  * a sum of two operands, a maximum with a constant zero, a reshape to the operand's own shape;
  * a change to a narrower float format, which on the extended reals changes nothing;
  * the matrix unit's product into a zero accumulator with a fixed right factor against the host's plain product.

  Chained, they read max(x·W + B, 0) and the like, computed on a block, as rows of the same expression on whole arrays.
-/
import Idealize.ShloMosaic.PureOps.Ideal.Laws
import Idealize.ShloMosaic.Lib.Pipeline.Value
import Idealize.ShloMosaic.Lib.ValueIdx
import Idealize.ShloMosaic.Lib.ValueLayout
import proofs.«155925_j35089882808747_1_alg».proof.Proof.LibBlockRows

noncomputable section

namespace Cert.RowLayers

open Idealize.ShloMosaic Idealize.ShloMosaic.ValueIdx Cert.BlockRows

variable {TM M K N : Nat}

/-- The host's bias matrix of a one-row matrix: the row broadcast down M rows. -/
def rowBias {α : Type} (h2 : (⟨2, ![1, N]⟩ : Shape).BroadcastsInDim ⟨2, ![M, N]⟩ ![0, 1])
    (B : (⟨2, ![1, N]⟩ : Shape).Idx → α) : (⟨2, ![M, N]⟩ : Shape).Idx → α :=
  broadcastInDim ⟨2, ![M, N]⟩ ![0, 1] h2 B

/-- Entry (r, c) of the bias matrix is entry (0, c) of the row. -/
theorem rowBias_apply {α : Type} (h2 : (⟨2, ![1, N]⟩ : Shape).BroadcastsInDim ⟨2, ![M, N]⟩ ![0, 1])
    (B : (⟨2, ![1, N]⟩ : Shape).Idx → α) (r : Fin M) (c : Fin N) : rowBias h2 B (ix2 r c) = B (ix2 (0 : Fin 1) c) := by
  unfold rowBias
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The one row, reshaped to its own shape and broadcast down a block of TM rows, is any TM picked rows of the
    host's bias matrix. -/
theorem rowBias_rows {α : Type} (ρ : Fin TM → Fin M) (B : (⟨2, ![1, N]⟩ : Shape).Idx → α)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    broadcastTo ⟨2, ![TM, N]⟩ (shapeCast ⟨2, ![1, N]⟩ B hs) hb = rowsOf ρ (rowBias h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, rowBias_apply]

/-- A reshape of picked rows to their own shape is the picked rows. -/
theorem cast_of_rows {α : Type} (ρ : Fin TM → Fin M) (y : (⟨2, ![TM, N]⟩ : Shape).Idx → α) (Y : (⟨2, ![M, N]⟩ : Shape).Idx → α)
    (hy : y = rowsOf ρ Y) (hs : (⟨2, ![TM, N]⟩ : Shape).ShapeCasts ⟨2, ![TM, N]⟩) :
    shapeCast ⟨2, ![TM, N]⟩ y hs = rowsOf ρ Y := by
  rw [shapeCast_self]; exact hy

/-- Picked rows plus the bias row broadcast down the block are the picked rows of the host's sum with the bias matrix. -/
theorem addBias_of_rows (ρ : Fin TM → Fin M) (y : FVec Ideal ⟨2, ![TM, N]⟩ .f32) (Y : FVec Ideal ⟨2, ![M, N]⟩ .f32)
    (hy : y = rowsOf ρ Y) (B : FVec Ideal ⟨2, ![1, N]⟩ .f32)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf y (broadcastTo ⟨2, ![TM, N]⟩ (shapeCast ⟨2, ![1, N]⟩ B hs) hb) = rowsOf ρ (addf Y (rowBias h2 B)) := by
  subst hy
  rw [rowBias_rows ρ B hs hb h2, addf_rows]

/-- A sum of two operands that are picked rows is the picked rows of the sum. -/
theorem addf_of_rows (ρ : Fin TM → Fin M) (y z : FVec Ideal ⟨2, ![TM, N]⟩ .f32) (Y Z : FVec Ideal ⟨2, ![M, N]⟩ .f32)
    (hy : y = rowsOf ρ Y) (hz : z = rowsOf ρ Z) : addf y z = rowsOf ρ (addf Y Z) := by
  subst hy hz; rfl

/-- The maximum of picked rows with a splat zero is the picked rows of the host's maximum with zero. -/
theorem relu_of_rows (ρ : Fin TM → Fin M) (y : FVec Ideal ⟨2, ![TM, N]⟩ .f32) (Y : FVec Ideal ⟨2, ![M, N]⟩ .f32)
    (hy : y = rowsOf ρ Y) (h0 : (⟨0, ![]⟩ : Shape).BroadcastsInDim ⟨2, ![M, N]⟩ ![]) :
    maximumf y (broadcast ⟨2, ![TM, N]⟩ (Scalar.ofBits (F := Ideal) .f32 0x00000000#32)) = rowsOf ρ (relu h0 Y) := by
  subst hy
  exact relu_rows ρ h0 Y

/-- Picked rows converted to a narrower float format are, on the extended reals, the same picked rows. -/
theorem trunc_of_rows (ρ : Fin TM → Fin M) {ψ : FTy} (hψ : ψ.bits < FTy.f32.bits) (y : FVec Ideal ⟨2, ![TM, N]⟩ .f32)
    (Y : FVec Ideal ⟨2, ![M, N]⟩ .f32) (hy : y = rowsOf ρ Y) :
    (truncf ψ y hψ : (⟨2, ![TM, N]⟩ : Shape).Idx → EReal) = rowsOf ρ Y := hy

/-- A whole matrix converted to a narrower float format is, on the extended reals, the same matrix. -/
theorem trunc_whole {s : Shape} {ψ : FTy} (hψ : ψ.bits < FTy.f32.bits) (g G : FVec Ideal s .f32) (hg : g = G) :
    (truncf ψ g hψ : s.Idx → EReal) = G := hg

/-- The matrix unit's product into zeros of a left operand that IS picked rows of A with a right operand that IS G
    (either possibly in another float format) is the picked rows of the host's A · G. -/
theorem matmul_of_rows (ρ : Fin TM → Fin M) {φ₁ φ₂ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32) = rowsOf ρ (propagate A G) :=
  matmul_rows ρ none none a g A G (fun p k => congrFun ha (ix2 p k)) (fun k n => congrFun hg (ix2 k n))

end Cert.RowLayers

end
-- ==== Proof.LibDenseBlock.lean ====
/-
  A dense layer computed on a block of rows.

  A tall matrix X of M rows is cut into blocks of TM rows; a block is the rows ρ 0, ρ 1, … of X for a map ρ of row
  numbers. On such a block the matrix unit forms the product with a fixed K × N table W into a zero accumulator — both
  operands first narrowed to a shorter float format, which on the extended reals changes nothing —, adds a one-row
  matrix B broadcast down the block, and possibly cuts the sum at zero from below. Each of these acts on every row
  by itself, so the block's result is the rows ρ 0, ρ 1, … of the same layer computed by the host on all of X:
  X · W, plus B broadcast down all M rows, possibly cut at zero. The block's left operand may first have been
  reshaped to its own shape.
-/
import Idealize.ShloMosaic.PureOps.Ideal.Laws
import Idealize.ShloMosaic.Lib.Pipeline.Value
import Idealize.ShloMosaic.Lib.ValueIdx
import Idealize.ShloMosaic.Lib.ValueLayout
import proofs.«155925_j35089882808747_1_alg».proof.Proof.LibRowLayers

noncomputable section

namespace Cert.DenseBlock

open Idealize.ShloMosaic Idealize.ShloMosaic.ValueIdx Cert.BlockRows Cert.RowLayers

variable {TM M K N : Nat}

/-- The host's affine layer on all M rows: X · W plus the one row B under every row. -/
def affine (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (propagate X W) (rowBias h2 B)

/-- The same cut at zero from below. -/
def affineRelu (h0 : (⟨0, ![]⟩ : Shape).BroadcastsInDim ⟨2, ![M, N]⟩ ![])
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  relu h0 (affine h2 X W B)

/-- The affine layer on a block: narrowed picked rows of X times narrowed W into zeros, plus B broadcast down the
    block, is the picked rows of the host's affine layer. -/
theorem affine_rows (ρ : Fin TM → Fin M) {ψ : FTy} (hψ : ψ.bits < FTy.f32.bits)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (truncf ψ (rowsOf ρ X) hψ) (truncf ψ W hψ)
          (constant ⟨2, ![TM, N]⟩ .f32 0x00000000#32))
        (broadcastTo ⟨2, ![TM, N]⟩ (shapeCast ⟨2, ![1, N]⟩ B hs) hb)
      = rowsOf ρ (affine h2 X W B) :=
  addBias_of_rows ρ _ (propagate X W)
    (matmul_of_rows ρ (truncf ψ (rowsOf ρ X) hψ) (truncf ψ W hψ) X W rfl rfl) B hs hb h2

/-- The same with the block's left operand first reshaped to its own shape. -/
theorem affine_rows_cast (ρ : Fin TM → Fin M) {ψ : FTy} (hψ : ψ.bits < FTy.f32.bits)
    (hx : (⟨2, ![TM, K]⟩ : Shape).ShapeCasts ⟨2, ![TM, K]⟩)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (truncf ψ (shapeCast ⟨2, ![TM, K]⟩ (rowsOf ρ X) hx) hψ) (truncf ψ W hψ)
          (constant ⟨2, ![TM, N]⟩ .f32 0x00000000#32))
        (broadcastTo ⟨2, ![TM, N]⟩ (shapeCast ⟨2, ![1, N]⟩ B hs) hb)
      = rowsOf ρ (affine h2 X W B) := by
  rw [shapeCast_self]
  exact affine_rows ρ hψ hs hb h2 X W B

/-- The affine layer cut at zero, on a block. -/
theorem affineRelu_rows (ρ : Fin TM → Fin M) {ψ : FTy} (hψ : ψ.bits < FTy.f32.bits)
    (hs : (⟨2, ![1, N]⟩ : Shape).ShapeCasts ⟨2, ![1, N]⟩) (hb : (⟨2, ![1, N]⟩ : Shape).Broadcasts ⟨2, ![TM, N]⟩)
    (h0 : (⟨0, ![]⟩ : Shape).BroadcastsInDim ⟨2, ![M, N]⟩ ![])
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    maximumf
        (addf (matmul (DotDims.plain TM K N) none (truncf ψ (rowsOf ρ X) hψ) (truncf ψ W hψ)
            (constant ⟨2, ![TM, N]⟩ .f32 0x00000000#32))
          (broadcastTo ⟨2, ![TM, N]⟩ (shapeCast ⟨2, ![1, N]⟩ B hs) hb))
        (broadcast ⟨2, ![TM, N]⟩ (Scalar.ofBits (F := Ideal) .f32 0x00000000#32))
      = rowsOf ρ (affineRelu h0 h2 X W B) :=
  relu_of_rows ρ _ (affine h2 X W B) (affine_rows ρ hψ hs hb h2 X W B) h0

/-- The same with the block's left operand first reshaped to its own shape. -/
theorem affineRelu_rows_cast (ρ : Fin TM → Fin M) {ψ : FTy} (hψ : ψ.bits < FTy.f32.bits)
    (hx : (⟨2, ![TM, K]⟩ : Shape).ShapeCasts ⟨2, ![TM, K]⟩)
    (hs : (⟨2, ![1, N]⟩ : Shape).ShapeCasts ⟨2, ![1, N]⟩) (hb : (⟨2, ![1, N]⟩ : Shape).Broadcasts ⟨2, ![TM, N]⟩)
    (h0 : (⟨0, ![]⟩ : Shape).BroadcastsInDim ⟨2, ![M, N]⟩ ![])
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    maximumf
        (addf (matmul (DotDims.plain TM K N) none (truncf ψ (shapeCast ⟨2, ![TM, K]⟩ (rowsOf ρ X) hx) hψ) (truncf ψ W hψ)
            (constant ⟨2, ![TM, N]⟩ .f32 0x00000000#32))
          (broadcastTo ⟨2, ![TM, N]⟩ (shapeCast ⟨2, ![1, N]⟩ B hs) hb))
        (broadcast ⟨2, ![TM, N]⟩ (Scalar.ofBits (F := Ideal) .f32 0x00000000#32))
      = rowsOf ρ (affineRelu h0 h2 X W B) :=
  relu_of_rows ρ _ (affine h2 X W B) (affine_rows_cast ρ hψ hx hs hb h2 X W B) h0

end Cert.DenseBlock

end
-- ==== Proof.Region0.lean ====
/-
  Launch 0: a dense layer over 800000 rows, 16000 rows at a grid point.

  The launch has 50 grid points. At point t its first window stages rows 16000·t … 16000·t + 15999 of the 800000 × 32
  input X, its second the whole 32 × 32 table W, its third the whole one-row matrix B, and its fourth writes rows
  16000·t … 16000·t + 15999 of the 800000 × 32 output back. The body computes the layer on the staged rows, which is the
  same rows of the layer computed on all of X (X · W plus the row B under every row). The 50 blocks
  of rows tile the output, so after the launch the output array is the layer of the three arrays as the launch found them.
-/
import proofs.«155925_j35089882808747_1_alg».proof.Proof.Gen.KernelIdeal.Frame
import Idealize.ShloMosaic.Lib.Pipeline.Value
import proofs.«155925_j35089882808747_1_alg».proof.Proof.LibDenseBlock

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.BlockRows Cert.RowLayers Cert.DenseBlock

variable (V : (c : Dev nD) → (b : Ref sig .tc) → Buf (Elt Ideal) ((c : Thread nD τ).loc b))

theorem zeros : (![0, 0] : Fin 2 → Nat) = fun _ => 0 := funext fun a => by fin_cases a <;> rfl

/-- The grid has 50 points. -/
theorem points : cfg0.N = 50 := N_0

/-- The layer on all 800000 rows: X · W plus the row B under every row. -/
def layer (X : FVec Ideal S800000x32 .f32) (W : FVec Ideal S32x32 .f32) (B : FVec Ideal S1x32 .f32) : FVec Ideal S800000x32 .f32 :=
  affine (M := 800000) (K := 32) (N := 32) (by decide) X W B

/-- Row p of the block of point t is row 16000·t + p of the array. -/
def rows (t : Fin cfg0.N) : Fin 16000 → Fin 800000 :=
  blockRow 16000 cfg0.N 800000 (by have := points; omega) t

theorem rows_val (t : Fin cfg0.N) (p : Fin 16000) : (rows t p).val = 16000 * t.val + p.val := rfl

/-- The body's arithmetic on picked rows of X is the picked rows of the layer on X. -/
theorem payload_rows (ρ : Fin 16000 → Fin 800000) (X : FVec Ideal S800000x32 .f32) (W : FVec Ideal S32x32 .f32) (B : FVec Ideal S1x32 .f32) :
    k0_pay1 (F := Ideal) (rowsOf ρ X) W B = rowsOf ρ (layer X W B) := by
  unfold k0_pay1 layer
  exact affine_rows ρ bitsLt_bf16_f32 shapeCasts_S1x32_S1x32 broadcasts_S1x32_S16000x32 (by decide) X W B

/-- The block indices over the grid: the row windows move with the point, the table and the bias row stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point t is rows 16000·t … of the input array. -/
theorem block_x (c : Dev nD) (t : Fin cfg0.N) :
    (iblk0 V c 0 t : Vec Ideal S16000x32 .f32) = rowsOf (rows t) (V c main_arg1 : S800000x32.Idx → EReal) := by
  obtain ⟨e0, e1, -⟩ := index_facts t
  funext y
  unfold iblk0
  rw [View.read_apply]
  show V c main_arg1 (((cfg0.win 0).blk t).view.emb y) = V c main_arg1 (ix2 (rows t (y 0)) (y 1))
  refine congrArg (V c main_arg1) ?_
  funext a; apply Fin.ext
  match a with
  | ⟨0, _⟩ => show win0_0.index t (0 : Fin 2) * 16000 + 1 * (y 0).val = 16000 * t.val + (y 0).val; rw [e0]; omega
  | ⟨1, _⟩ => show win0_0.index t (1 : Fin 2) * 32 + 1 * (y 1).val = (y 1).val; rw [e1]; omega

/-- The second window's block is the whole table at every point. -/
theorem block_w (c : Dev nD) (t : Fin cfg0.N) : (iblk0 V c 1 t : Vec Ideal S32x32 .f32) = V c main_arg4 := by
  obtain ⟨-, -, e2, e3, -⟩ := index_facts t
  funext y
  unfold iblk0
  rw [View.read_apply]
  show V c main_arg4 (((cfg0.win 1).blk t).view.emb y) = V c main_arg4 y
  refine congrArg (V c main_arg4) ?_
  funext a; apply Fin.ext
  match a with
  | ⟨0, _⟩ => show win0_1.index t (0 : Fin 2) * 32 + 1 * (y 0).val = (y 0).val; rw [e2]; omega
  | ⟨1, _⟩ => show win0_1.index t (1 : Fin 2) * 32 + 1 * (y 1).val = (y 1).val; rw [e3]; omega

/-- The third window's block is the whole bias row at every point. -/
theorem block_b (c : Dev nD) (t : Fin cfg0.N) : (iblk0 V c 2 t : Vec Ideal S1x32 .f32) = V c main_v11 := by
  obtain ⟨-, -, -, -, e4, e5, -⟩ := index_facts t
  funext y
  unfold iblk0
  rw [View.read_apply]
  show V c main_v11 (((cfg0.win 2).blk t).view.emb y) = V c main_v11 y
  refine congrArg (V c main_v11) ?_
  funext a; apply Fin.ext
  match a with
  | ⟨0, _⟩ => show win0_2.index t (0 : Fin 2) * 1 + 1 * (y 0).val = (y 0).val; rw [e4]; omega
  | ⟨1, _⟩ => show win0_2.index t (1 : Fin 2) * 32 + 1 * (y 1).val = (y 1).val; rw [e5]; omega

/-- What point t writes back is block t of the layer of the arrays as the launch found them. -/
theorem flushed_eq (c : Dev nD) (t : Fin cfg0.N) :
    (dat0 (F := Ideal) V c).flushed 3 t
      = ((cfg0.win 3).blk t).view.read (Elt Ideal) (layer (V c main_arg1) (V c main_arg4) (V c main_v11)) := by
  show (cfg0.win 3).cut (grid0.coords t) ((dat0 (F := Ideal) V c).after 3 t) = _
  rw [after0_3]
  unfold out0_3
  rw [View.canon_unit_zero zeros]
  simp only [View.ld_unit_zero (S := S16000x32) zeros, View.ld_unit_zero (S := S32x32) zeros, View.ld_unit_zero (S := S1x32) zeros]
  rw [block_x V c t, block_w V c t, block_b V c t, payload_rows]
  obtain ⟨-, -, -, -, -, -, e6, e7⟩ := index_facts t
  funext j
  show layer (V c main_arg1) (V c main_arg4) (V c main_v11) (ix2 (rows t (j 0)) (j 1))
    = layer (V c main_arg1) (V c main_arg4) (V c main_v11) (((cfg0.win 3).blk t).view.emb j)
  refine congrArg (layer (V c main_arg1) (V c main_arg4) (V c main_v11)) ?_
  funext a; apply Fin.ext
  match a with
  | ⟨0, _⟩ => show 16000 * t.val + (j 0).val = win0_3.index t (0 : Fin 2) * 16000 + 1 * (j 0).val; rw [e6]; omega
  | ⟨1, _⟩ => show (j 1).val = win0_3.index t (1 : Fin 2) * 32 + 1 * (j 1).val; rw [e7]; omega

/-- An index of the output array is in point t's block iff each coordinate is in the block's range. -/
theorem mem_block (t : Fin cfg0.N) (i : S800000x32.Idx) :
    i ∈ ((cfg0.win 3).blk t).view.set ↔ ∀ a : Fin 2, win0_3.index t a * S16000x32.size a ≤ (i a).val
      ∧ (i a).val < win0_3.index t a * S16000x32.size a + S16000x32.size a := by
  show i ∈ ((View.whole main_v12).slice (win0_3.rect t)).set ↔ _
  rw [View.set_slice_whole, Rect.mem_set_unit]
  exact Iff.rfl

/-- The point whose block holds row r: r / 16000. -/
def pointOf (i : S800000x32.Idx) : Fin cfg0.N :=
  ⟨(i 0).val / 16000, by have := points; have h : (i 0).val < 800000 := (i 0).isLt; omega⟩

/-- After the launch the output array is the layer of the input array, the table and the bias row as found. -/
theorem final (c : Dev nD) :
    (dat0 (F := Ideal) V c).arrAt 3 cfg0.N = layer (V c main_arg1) (V c main_arg4) (V c main_v11) :=
  (dat0 (F := Ideal) V c).arrAt_eq_of_cover 3 _ (fun t _ => flushed_eq V c t) fun (i : S800000x32.Idx) => by
    have h0 : (i 0).val < 800000 := (i 0).isLt
    have h1 : (i 1).val < 32 := (i 1).isLt
    refine ⟨pointOf i, flush0_3 _, ?_⟩
    rw [mem_block]
    obtain ⟨-, -, -, -, -, -, e6, e7⟩ := index_facts (pointOf i)
    have hp : (pointOf i).val = (i 0).val / 16000 := rfl
    intro a
    match a with
    | ⟨0, _⟩ =>
      show win0_3.index (pointOf i) (0 : Fin 2) * 16000 ≤ (i 0).val
        ∧ (i 0).val < win0_3.index (pointOf i) (0 : Fin 2) * 16000 + 16000
      rw [e6, hp]; omega
    | ⟨1, _⟩ =>
      show win0_3.index (pointOf i) (1 : Fin 2) * 32 ≤ (i 1).val
        ∧ (i 1).val < win0_3.index (pointOf i) (1 : Fin 2) * 32 + 32
      rw [e7]; omega

end Cert.KernelIdeal.Region0

end
-- ==== Proof.Region1.lean ====
/-
  Launch 1: a dense layer over 50000 rows, 2000 rows at a grid point.

  The launch has 25 grid points. At point t its first window stages rows 2000·t … 2000·t + 1999 of the 50000 × 64
  input X, its second the whole 64 × 96 table W, its third the whole one-row matrix B, and its fourth writes rows
  2000·t … 2000·t + 1999 of the 50000 × 96 output back. The body computes the layer on the staged rows, which is the
  same rows of the layer computed on all of X (X · W plus the row B under every row, cut at zero from below). The 25 blocks
  of rows tile the output, so after the launch the output array is the layer of the three arrays as the launch found them.
-/
import proofs.«155925_j35089882808747_1_alg».proof.Proof.Gen.KernelIdeal.Frame
import Idealize.ShloMosaic.Lib.Pipeline.Value
import proofs.«155925_j35089882808747_1_alg».proof.Proof.LibDenseBlock

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.BlockRows Cert.RowLayers Cert.DenseBlock

variable (V : (c : Dev nD) → (b : Ref sig .tc) → Buf (Elt Ideal) ((c : Thread nD τ).loc b))

theorem zeros : (![0, 0] : Fin 2 → Nat) = fun _ => 0 := funext fun a => by fin_cases a <;> rfl

/-- The grid has 25 points. -/
theorem points : cfg1.N = 25 := N_1

/-- The layer on all 50000 rows: X · W plus the row B under every row, cut at zero from below. -/
def layer (X : FVec Ideal S50000x64 .f32) (W : FVec Ideal S64x96 .f32) (B : FVec Ideal S1x96 .f32) : FVec Ideal S50000x96 .f32 :=
  affineRelu (M := 50000) (K := 64) (N := 96) (by decide) (by decide) X W B

/-- Row p of the block of point t is row 2000·t + p of the array. -/
def rows (t : Fin cfg1.N) : Fin 2000 → Fin 50000 :=
  blockRow 2000 cfg1.N 50000 (by have := points; omega) t

theorem rows_val (t : Fin cfg1.N) (p : Fin 2000) : (rows t p).val = 2000 * t.val + p.val := rfl

/-- The body's arithmetic on picked rows of X is the picked rows of the layer on X. -/
theorem payload_rows (ρ : Fin 2000 → Fin 50000) (X : FVec Ideal S50000x64 .f32) (W : FVec Ideal S64x96 .f32) (B : FVec Ideal S1x96 .f32) :
    k1_pay1 (F := Ideal) (rowsOf ρ X) W B = rowsOf ρ (layer X W B) := by
  unfold k1_pay1 layer
  exact affineRelu_rows ρ bitsLt_bf16_f32 shapeCasts_S1x96_S1x96 broadcasts_S1x96_S2000x96 (by decide) (by decide) X W B

/-- The block indices over the grid: the row windows move with the point, the table and the bias row stay. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at point t is rows 2000·t … of the input array. -/
theorem block_x (c : Dev nD) (t : Fin cfg1.N) :
    (iblk1 V c 0 t : Vec Ideal S2000x64 .f32) = rowsOf (rows t) (V c main_arg0 : S50000x64.Idx → EReal) := by
  obtain ⟨e0, e1, -⟩ := index_facts t
  funext y
  unfold iblk1
  rw [View.read_apply]
  show V c main_arg0 (((cfg1.win 0).blk t).view.emb y) = V c main_arg0 (ix2 (rows t (y 0)) (y 1))
  refine congrArg (V c main_arg0) ?_
  funext a; apply Fin.ext
  match a with
  | ⟨0, _⟩ => show win1_0.index t (0 : Fin 2) * 2000 + 1 * (y 0).val = 2000 * t.val + (y 0).val; rw [e0]; omega
  | ⟨1, _⟩ => show win1_0.index t (1 : Fin 2) * 64 + 1 * (y 1).val = (y 1).val; rw [e1]; omega

/-- The second window's block is the whole table at every point. -/
theorem block_w (c : Dev nD) (t : Fin cfg1.N) : (iblk1 V c 1 t : Vec Ideal S64x96 .f32) = V c main_arg2 := by
  obtain ⟨-, -, e2, e3, -⟩ := index_facts t
  funext y
  unfold iblk1
  rw [View.read_apply]
  show V c main_arg2 (((cfg1.win 1).blk t).view.emb y) = V c main_arg2 y
  refine congrArg (V c main_arg2) ?_
  funext a; apply Fin.ext
  match a with
  | ⟨0, _⟩ => show win1_1.index t (0 : Fin 2) * 64 + 1 * (y 0).val = (y 0).val; rw [e2]; omega
  | ⟨1, _⟩ => show win1_1.index t (1 : Fin 2) * 96 + 1 * (y 1).val = (y 1).val; rw [e3]; omega

/-- The third window's block is the whole bias row at every point. -/
theorem block_b (c : Dev nD) (t : Fin cfg1.N) : (iblk1 V c 2 t : Vec Ideal S1x96 .f32) = V c main_v20 := by
  obtain ⟨-, -, -, -, e4, e5, -⟩ := index_facts t
  funext y
  unfold iblk1
  rw [View.read_apply]
  show V c main_v20 (((cfg1.win 2).blk t).view.emb y) = V c main_v20 y
  refine congrArg (V c main_v20) ?_
  funext a; apply Fin.ext
  match a with
  | ⟨0, _⟩ => show win1_2.index t (0 : Fin 2) * 1 + 1 * (y 0).val = (y 0).val; rw [e4]; omega
  | ⟨1, _⟩ => show win1_2.index t (1 : Fin 2) * 96 + 1 * (y 1).val = (y 1).val; rw [e5]; omega

/-- What point t writes back is block t of the layer of the arrays as the launch found them. -/
theorem flushed_eq (c : Dev nD) (t : Fin cfg1.N) :
    (dat1 (F := Ideal) V c).flushed 3 t
      = ((cfg1.win 3).blk t).view.read (Elt Ideal) (layer (V c main_arg0) (V c main_arg2) (V c main_v20)) := by
  show (cfg1.win 3).cut (grid1.coords t) ((dat1 (F := Ideal) V c).after 3 t) = _
  rw [after1_3]
  unfold out1_3
  rw [View.canon_unit_zero zeros]
  simp only [View.ld_unit_zero (S := S2000x64) zeros, View.ld_unit_zero (S := S64x96) zeros, View.ld_unit_zero (S := S1x96) zeros]
  rw [block_x V c t, block_w V c t, block_b V c t, payload_rows]
  obtain ⟨-, -, -, -, -, -, e6, e7⟩ := index_facts t
  funext j
  show layer (V c main_arg0) (V c main_arg2) (V c main_v20) (ix2 (rows t (j 0)) (j 1))
    = layer (V c main_arg0) (V c main_arg2) (V c main_v20) (((cfg1.win 3).blk t).view.emb j)
  refine congrArg (layer (V c main_arg0) (V c main_arg2) (V c main_v20)) ?_
  funext a; apply Fin.ext
  match a with
  | ⟨0, _⟩ => show 2000 * t.val + (j 0).val = win1_3.index t (0 : Fin 2) * 2000 + 1 * (j 0).val; rw [e6]; omega
  | ⟨1, _⟩ => show (j 1).val = win1_3.index t (1 : Fin 2) * 96 + 1 * (j 1).val; rw [e7]; omega

/-- An index of the output array is in point t's block iff each coordinate is in the block's range. -/
theorem mem_block (t : Fin cfg1.N) (i : S50000x96.Idx) :
    i ∈ ((cfg1.win 3).blk t).view.set ↔ ∀ a : Fin 2, win1_3.index t a * S2000x96.size a ≤ (i a).val
      ∧ (i a).val < win1_3.index t a * S2000x96.size a + S2000x96.size a := by
  show i ∈ ((View.whole main_v21).slice (win1_3.rect t)).set ↔ _
  rw [View.set_slice_whole, Rect.mem_set_unit]
  exact Iff.rfl

/-- The point whose block holds row r: r / 2000. -/
def pointOf (i : S50000x96.Idx) : Fin cfg1.N :=
  ⟨(i 0).val / 2000, by have := points; have h : (i 0).val < 50000 := (i 0).isLt; omega⟩

/-- After the launch the output array is the layer of the input array, the table and the bias row as found. -/
theorem final (c : Dev nD) :
    (dat1 (F := Ideal) V c).arrAt 3 cfg1.N = layer (V c main_arg0) (V c main_arg2) (V c main_v20) :=
  (dat1 (F := Ideal) V c).arrAt_eq_of_cover 3 _ (fun t _ => flushed_eq V c t) fun (i : S50000x96.Idx) => by
    have h0 : (i 0).val < 50000 := (i 0).isLt
    have h1 : (i 1).val < 96 := (i 1).isLt
    refine ⟨pointOf i, flush1_3 _, ?_⟩
    rw [mem_block]
    obtain ⟨-, -, -, -, -, -, e6, e7⟩ := index_facts (pointOf i)
    have hp : (pointOf i).val = (i 0).val / 2000 := rfl
    intro a
    match a with
    | ⟨0, _⟩ =>
      show win1_3.index (pointOf i) (0 : Fin 2) * 2000 ≤ (i 0).val
        ∧ (i 0).val < win1_3.index (pointOf i) (0 : Fin 2) * 2000 + 2000
      rw [e6, hp]; omega
    | ⟨1, _⟩ =>
      show win1_3.index (pointOf i) (1 : Fin 2) * 96 ≤ (i 1).val
        ∧ (i 1).val < win1_3.index (pointOf i) (1 : Fin 2) * 96 + 96
      rw [e7]; omega

end Cert.KernelIdeal.Region1

end
-- ==== Proof.Region2.lean ====
/-
  Launch 2: a dense layer over 50000 rows, 2000 rows at a grid point.

  The launch has 25 grid points. At point t its first window stages rows 2000·t … 2000·t + 1999 of the 50000 × 128
  input X, its second the whole 128 × 192 table W, its third the whole one-row matrix B, and its fourth writes rows
  2000·t … 2000·t + 1999 of the 50000 × 192 output back. The body computes the layer on the staged rows, which is the
  same rows of the layer computed on all of X (X · W plus the row B under every row, cut at zero from below). The 25 blocks
  of rows tile the output, so after the launch the output array is the layer of the three arrays as the launch found them.
-/
import proofs.«155925_j35089882808747_1_alg».proof.Proof.Gen.KernelIdeal.Frame
import Idealize.ShloMosaic.Lib.Pipeline.Value
import proofs.«155925_j35089882808747_1_alg».proof.Proof.LibDenseBlock

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.BlockRows Cert.RowLayers Cert.DenseBlock

variable (V : (c : Dev nD) → (b : Ref sig .tc) → Buf (Elt Ideal) ((c : Thread nD τ).loc b))

theorem zeros : (![0, 0] : Fin 2 → Nat) = fun _ => 0 := funext fun a => by fin_cases a <;> rfl

/-- The grid has 25 points. -/
theorem points : cfg2.N = 25 := N_2

/-- The layer on all 50000 rows: X · W plus the row B under every row, cut at zero from below. -/
def layer (X : FVec Ideal S50000x128 .f32) (W : FVec Ideal S128x192 .f32) (B : FVec Ideal S1x192 .f32) : FVec Ideal S50000x192 .f32 :=
  affineRelu (M := 50000) (K := 128) (N := 192) (by decide) (by decide) X W B

/-- Row p of the block of point t is row 2000·t + p of the array. -/
def rows (t : Fin cfg2.N) : Fin 2000 → Fin 50000 :=
  blockRow 2000 cfg2.N 50000 (by have := points; omega) t

theorem rows_val (t : Fin cfg2.N) (p : Fin 2000) : (rows t p).val = 2000 * t.val + p.val := rfl

/-- The body's arithmetic on picked rows of X is the picked rows of the layer on X. -/
theorem payload_rows (ρ : Fin 2000 → Fin 50000) (X : FVec Ideal S50000x128 .f32) (W : FVec Ideal S128x192 .f32) (B : FVec Ideal S1x192 .f32) :
    k2_pay1 (F := Ideal) (rowsOf ρ X) W B = rowsOf ρ (layer X W B) := by
  unfold k2_pay1 layer
  exact affineRelu_rows_cast ρ bitsLt_bf16_f32 shapeCasts_S2000x128_S2000x128 shapeCasts_S1x192_S1x192 broadcasts_S1x192_S2000x192 (by decide) (by decide) X W B

/-- The block indices over the grid: the row windows move with the point, the table and the bias row stay. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first window's block at point t is rows 2000·t … of the input array. -/
theorem block_x (c : Dev nD) (t : Fin cfg2.N) :
    (iblk2 V c 0 t : Vec Ideal S2000x128 .f32) = rowsOf (rows t) (V c main_v38 : S50000x128.Idx → EReal) := by
  obtain ⟨e0, e1, -⟩ := index_facts t
  funext y
  unfold iblk2
  rw [View.read_apply]
  show V c main_v38 (((cfg2.win 0).blk t).view.emb y) = V c main_v38 (ix2 (rows t (y 0)) (y 1))
  refine congrArg (V c main_v38) ?_
  funext a; apply Fin.ext
  match a with
  | ⟨0, _⟩ => show win2_0.index t (0 : Fin 2) * 2000 + 1 * (y 0).val = 2000 * t.val + (y 0).val; rw [e0]; omega
  | ⟨1, _⟩ => show win2_0.index t (1 : Fin 2) * 128 + 1 * (y 1).val = (y 1).val; rw [e1]; omega

/-- The second window's block is the whole table at every point. -/
theorem block_w (c : Dev nD) (t : Fin cfg2.N) : (iblk2 V c 1 t : Vec Ideal S128x192 .f32) = V c main_arg6 := by
  obtain ⟨-, -, e2, e3, -⟩ := index_facts t
  funext y
  unfold iblk2
  rw [View.read_apply]
  show V c main_arg6 (((cfg2.win 1).blk t).view.emb y) = V c main_arg6 y
  refine congrArg (V c main_arg6) ?_
  funext a; apply Fin.ext
  match a with
  | ⟨0, _⟩ => show win2_1.index t (0 : Fin 2) * 128 + 1 * (y 0).val = (y 0).val; rw [e2]; omega
  | ⟨1, _⟩ => show win2_1.index t (1 : Fin 2) * 192 + 1 * (y 1).val = (y 1).val; rw [e3]; omega

/-- The third window's block is the whole bias row at every point. -/
theorem block_b (c : Dev nD) (t : Fin cfg2.N) : (iblk2 V c 2 t : Vec Ideal S1x192 .f32) = V c main_v39 := by
  obtain ⟨-, -, -, -, e4, e5, -⟩ := index_facts t
  funext y
  unfold iblk2
  rw [View.read_apply]
  show V c main_v39 (((cfg2.win 2).blk t).view.emb y) = V c main_v39 y
  refine congrArg (V c main_v39) ?_
  funext a; apply Fin.ext
  match a with
  | ⟨0, _⟩ => show win2_2.index t (0 : Fin 2) * 1 + 1 * (y 0).val = (y 0).val; rw [e4]; omega
  | ⟨1, _⟩ => show win2_2.index t (1 : Fin 2) * 192 + 1 * (y 1).val = (y 1).val; rw [e5]; omega

/-- What point t writes back is block t of the layer of the arrays as the launch found them. -/
theorem flushed_eq (c : Dev nD) (t : Fin cfg2.N) :
    (dat2 (F := Ideal) V c).flushed 3 t
      = ((cfg2.win 3).blk t).view.read (Elt Ideal) (layer (V c main_v38) (V c main_arg6) (V c main_v39)) := by
  show (cfg2.win 3).cut (grid2.coords t) ((dat2 (F := Ideal) V c).after 3 t) = _
  rw [after2_3]
  unfold out2_3
  rw [View.canon_unit_zero zeros]
  simp only [View.ld_unit_zero (S := S2000x128) zeros, View.ld_unit_zero (S := S128x192) zeros, View.ld_unit_zero (S := S1x192) zeros]
  rw [block_x V c t, block_w V c t, block_b V c t, payload_rows]
  obtain ⟨-, -, -, -, -, -, e6, e7⟩ := index_facts t
  funext j
  show layer (V c main_v38) (V c main_arg6) (V c main_v39) (ix2 (rows t (j 0)) (j 1))
    = layer (V c main_v38) (V c main_arg6) (V c main_v39) (((cfg2.win 3).blk t).view.emb j)
  refine congrArg (layer (V c main_v38) (V c main_arg6) (V c main_v39)) ?_
  funext a; apply Fin.ext
  match a with
  | ⟨0, _⟩ => show 2000 * t.val + (j 0).val = win2_3.index t (0 : Fin 2) * 2000 + 1 * (j 0).val; rw [e6]; omega
  | ⟨1, _⟩ => show (j 1).val = win2_3.index t (1 : Fin 2) * 192 + 1 * (j 1).val; rw [e7]; omega

/-- An index of the output array is in point t's block iff each coordinate is in the block's range. -/
theorem mem_block (t : Fin cfg2.N) (i : S50000x192.Idx) :
    i ∈ ((cfg2.win 3).blk t).view.set ↔ ∀ a : Fin 2, win2_3.index t a * S2000x192.size a ≤ (i a).val
      ∧ (i a).val < win2_3.index t a * S2000x192.size a + S2000x192.size a := by
  show i ∈ ((View.whole main_v40).slice (win2_3.rect t)).set ↔ _
  rw [View.set_slice_whole, Rect.mem_set_unit]
  exact Iff.rfl

/-- The point whose block holds row r: r / 2000. -/
def pointOf (i : S50000x192.Idx) : Fin cfg2.N :=
  ⟨(i 0).val / 2000, by have := points; have h : (i 0).val < 50000 := (i 0).isLt; omega⟩

/-- After the launch the output array is the layer of the input array, the table and the bias row as found. -/
theorem final (c : Dev nD) :
    (dat2 (F := Ideal) V c).arrAt 3 cfg2.N = layer (V c main_v38) (V c main_arg6) (V c main_v39) :=
  (dat2 (F := Ideal) V c).arrAt_eq_of_cover 3 _ (fun t _ => flushed_eq V c t) fun (i : S50000x192.Idx) => by
    have h0 : (i 0).val < 50000 := (i 0).isLt
    have h1 : (i 1).val < 192 := (i 1).isLt
    refine ⟨pointOf i, flush2_3 _, ?_⟩
    rw [mem_block]
    obtain ⟨-, -, -, -, -, -, e6, e7⟩ := index_facts (pointOf i)
    have hp : (pointOf i).val = (i 0).val / 2000 := rfl
    intro a
    match a with
    | ⟨0, _⟩ =>
      show win2_3.index (pointOf i) (0 : Fin 2) * 2000 ≤ (i 0).val
        ∧ (i 0).val < win2_3.index (pointOf i) (0 : Fin 2) * 2000 + 2000
      rw [e6, hp]; omega
    | ⟨1, _⟩ =>
      show win2_3.index (pointOf i) (1 : Fin 2) * 192 ≤ (i 1).val
        ∧ (i 1).val < win2_3.index (pointOf i) (1 : Fin 2) * 192 + 192
      rw [e7]; omega

end Cert.KernelIdeal.Region2

end
-- ==== Proof.Region3.lean ====
/-
  Launch 3: a dense layer over 50000 rows, 2000 rows at a grid point.

  The launch has 25 grid points. At point t its first window stages rows 2000·t … 2000·t + 1999 of the 50000 × 192
  input X, its second the whole 192 × 192 table W, its third the whole one-row matrix B, and its fourth writes rows
  2000·t … 2000·t + 1999 of the 50000 × 192 output back. The body computes the layer on the staged rows, which is the
  same rows of the layer computed on all of X (X · W plus the row B under every row, cut at zero from below). The 25 blocks
  of rows tile the output, so after the launch the output array is the layer of the three arrays as the launch found them.
-/
import proofs.«155925_j35089882808747_1_alg».proof.Proof.Gen.KernelIdeal.Frame
import Idealize.ShloMosaic.Lib.Pipeline.Value
import proofs.«155925_j35089882808747_1_alg».proof.Proof.LibDenseBlock

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx Cert.BlockRows Cert.RowLayers Cert.DenseBlock

variable (V : (c : Dev nD) → (b : Ref sig .tc) → Buf (Elt Ideal) ((c : Thread nD τ).loc b))

theorem zeros : (![0, 0] : Fin 2 → Nat) = fun _ => 0 := funext fun a => by fin_cases a <;> rfl

/-- The grid has 25 points. -/
theorem points : cfg3.N = 25 := N_3

/-- The layer on all 50000 rows: X · W plus the row B under every row, cut at zero from below. -/
def layer (X : FVec Ideal S50000x192 .f32) (W : FVec Ideal S192x192 .f32) (B : FVec Ideal S1x192 .f32) : FVec Ideal S50000x192 .f32 :=
  affineRelu (M := 50000) (K := 192) (N := 192) (by decide) (by decide) X W B

/-- Row p of the block of point t is row 2000·t + p of the array. -/
def rows (t : Fin cfg3.N) : Fin 2000 → Fin 50000 :=
  blockRow 2000 cfg3.N 50000 (by have := points; omega) t

theorem rows_val (t : Fin cfg3.N) (p : Fin 2000) : (rows t p).val = 2000 * t.val + p.val := rfl

/-- The body's arithmetic on picked rows of X is the picked rows of the layer on X. -/
theorem payload_rows (ρ : Fin 2000 → Fin 50000) (X : FVec Ideal S50000x192 .f32) (W : FVec Ideal S192x192 .f32) (B : FVec Ideal S1x192 .f32) :
    k3_pay1 (F := Ideal) (rowsOf ρ X) W B = rowsOf ρ (layer X W B) := by
  unfold k3_pay1 layer
  exact affineRelu_rows_cast ρ bitsLt_bf16_f32 shapeCasts_S2000x192_S2000x192 shapeCasts_S1x192_S1x192 broadcasts_S1x192_S2000x192 (by decide) (by decide) X W B

/-- The block indices over the grid: the row windows move with the point, the table and the bias row stay. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The first window's block at point t is rows 2000·t … of the input array. -/
theorem block_x (c : Dev nD) (t : Fin cfg3.N) :
    (iblk3 V c 0 t : Vec Ideal S2000x192 .f32) = rowsOf (rows t) (V c main_v56 : S50000x192.Idx → EReal) := by
  obtain ⟨e0, e1, -⟩ := index_facts t
  funext y
  unfold iblk3
  rw [View.read_apply]
  show V c main_v56 (((cfg3.win 0).blk t).view.emb y) = V c main_v56 (ix2 (rows t (y 0)) (y 1))
  refine congrArg (V c main_v56) ?_
  funext a; apply Fin.ext
  match a with
  | ⟨0, _⟩ => show win3_0.index t (0 : Fin 2) * 2000 + 1 * (y 0).val = 2000 * t.val + (y 0).val; rw [e0]; omega
  | ⟨1, _⟩ => show win3_0.index t (1 : Fin 2) * 192 + 1 * (y 1).val = (y 1).val; rw [e1]; omega

/-- The second window's block is the whole table at every point. -/
theorem block_w (c : Dev nD) (t : Fin cfg3.N) : (iblk3 V c 1 t : Vec Ideal S192x192 .f32) = V c main_arg8 := by
  obtain ⟨-, -, e2, e3, -⟩ := index_facts t
  funext y
  unfold iblk3
  rw [View.read_apply]
  show V c main_arg8 (((cfg3.win 1).blk t).view.emb y) = V c main_arg8 y
  refine congrArg (V c main_arg8) ?_
  funext a; apply Fin.ext
  match a with
  | ⟨0, _⟩ => show win3_1.index t (0 : Fin 2) * 192 + 1 * (y 0).val = (y 0).val; rw [e2]; omega
  | ⟨1, _⟩ => show win3_1.index t (1 : Fin 2) * 192 + 1 * (y 1).val = (y 1).val; rw [e3]; omega

/-- The third window's block is the whole bias row at every point. -/
theorem block_b (c : Dev nD) (t : Fin cfg3.N) : (iblk3 V c 2 t : Vec Ideal S1x192 .f32) = V c main_v57 := by
  obtain ⟨-, -, -, -, e4, e5, -⟩ := index_facts t
  funext y
  unfold iblk3
  rw [View.read_apply]
  show V c main_v57 (((cfg3.win 2).blk t).view.emb y) = V c main_v57 y
  refine congrArg (V c main_v57) ?_
  funext a; apply Fin.ext
  match a with
  | ⟨0, _⟩ => show win3_2.index t (0 : Fin 2) * 1 + 1 * (y 0).val = (y 0).val; rw [e4]; omega
  | ⟨1, _⟩ => show win3_2.index t (1 : Fin 2) * 192 + 1 * (y 1).val = (y 1).val; rw [e5]; omega

/-- What point t writes back is block t of the layer of the arrays as the launch found them. -/
theorem flushed_eq (c : Dev nD) (t : Fin cfg3.N) :
    (dat3 (F := Ideal) V c).flushed 3 t
      = ((cfg3.win 3).blk t).view.read (Elt Ideal) (layer (V c main_v56) (V c main_arg8) (V c main_v57)) := by
  show (cfg3.win 3).cut (grid3.coords t) ((dat3 (F := Ideal) V c).after 3 t) = _
  rw [after3_3]
  unfold out3_3
  rw [View.canon_unit_zero zeros]
  simp only [View.ld_unit_zero (S := S2000x192) zeros, View.ld_unit_zero (S := S192x192) zeros, View.ld_unit_zero (S := S1x192) zeros]
  rw [block_x V c t, block_w V c t, block_b V c t, payload_rows]
  obtain ⟨-, -, -, -, -, -, e6, e7⟩ := index_facts t
  funext j
  show layer (V c main_v56) (V c main_arg8) (V c main_v57) (ix2 (rows t (j 0)) (j 1))
    = layer (V c main_v56) (V c main_arg8) (V c main_v57) (((cfg3.win 3).blk t).view.emb j)
  refine congrArg (layer (V c main_v56) (V c main_arg8) (V c main_v57)) ?_
  funext a; apply Fin.ext
  match a with
  | ⟨0, _⟩ => show 2000 * t.val + (j 0).val = win3_3.index t (0 : Fin 2) * 2000 + 1 * (j 0).val; rw [e6]; omega
  | ⟨1, _⟩ => show (j 1).val = win3_3.index t (1 : Fin 2) * 192 + 1 * (j 1).val; rw [e7]; omega

/-- An index of the output array is in point t's block iff each coordinate is in the block's range. -/
theorem mem_block (t : Fin cfg3.N) (i : S50000x192.Idx) :
    i ∈ ((cfg3.win 3).blk t).view.set ↔ ∀ a : Fin 2, win3_3.index t a * S2000x192.size a ≤ (i a).val
      ∧ (i a).val < win3_3.index t a * S2000x192.size a + S2000x192.size a := by
  show i ∈ ((View.whole main_v58).slice (win3_3.rect t)).set ↔ _
  rw [View.set_slice_whole, Rect.mem_set_unit]
  exact Iff.rfl

/-- The point whose block holds row r: r / 2000. -/
def pointOf (i : S50000x192.Idx) : Fin cfg3.N :=
  ⟨(i 0).val / 2000, by have := points; have h : (i 0).val < 50000 := (i 0).isLt; omega⟩

/-- After the launch the output array is the layer of the input array, the table and the bias row as found. -/
theorem final (c : Dev nD) :
    (dat3 (F := Ideal) V c).arrAt 3 cfg3.N = layer (V c main_v56) (V c main_arg8) (V c main_v57) :=
  (dat3 (F := Ideal) V c).arrAt_eq_of_cover 3 _ (fun t _ => flushed_eq V c t) fun (i : S50000x192.Idx) => by
    have h0 : (i 0).val < 50000 := (i 0).isLt
    have h1 : (i 1).val < 192 := (i 1).isLt
    refine ⟨pointOf i, flush3_3 _, ?_⟩
    rw [mem_block]
    obtain ⟨-, -, -, -, -, -, e6, e7⟩ := index_facts (pointOf i)
    have hp : (pointOf i).val = (i 0).val / 2000 := rfl
    intro a
    match a with
    | ⟨0, _⟩ =>
      show win3_3.index (pointOf i) (0 : Fin 2) * 2000 ≤ (i 0).val
        ∧ (i 0).val < win3_3.index (pointOf i) (0 : Fin 2) * 2000 + 2000
      rw [e6, hp]; omega
    | ⟨1, _⟩ =>
      show win3_3.index (pointOf i) (1 : Fin 2) * 192 ≤ (i 1).val
        ∧ (i 1).val < win3_3.index (pointOf i) (1 : Fin 2) * 192 + 192
      rw [e7]; omega

end Cert.KernelIdeal.Region3

end
-- ==== Proof.Region4.lean ====
/-
  Launch 4: a dense layer over 50000 rows, 2000 rows at a grid point.

  The launch has 25 grid points. At point t its first window stages rows 2000·t … 2000·t + 1999 of the 50000 × 192
  input X, its second the whole 192 × 192 table W, its third the whole one-row matrix B, and its fourth writes rows
  2000·t … 2000·t + 1999 of the 50000 × 192 output back. The body computes the layer on the staged rows, which is the
  same rows of the layer computed on all of X (X · W plus the row B under every row, cut at zero from below). The 25 blocks
  of rows tile the output, so after the launch the output array is the layer of the three arrays as the launch found them.
-/
import proofs.«155925_j35089882808747_1_alg».proof.Proof.Gen.KernelIdeal.Frame
import Idealize.ShloMosaic.Lib.Pipeline.Value
import proofs.«155925_j35089882808747_1_alg».proof.Proof.LibDenseBlock

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx Cert.BlockRows Cert.RowLayers Cert.DenseBlock

variable (V : (c : Dev nD) → (b : Ref sig .tc) → Buf (Elt Ideal) ((c : Thread nD τ).loc b))

theorem zeros : (![0, 0] : Fin 2 → Nat) = fun _ => 0 := funext fun a => by fin_cases a <;> rfl

/-- The grid has 25 points. -/
theorem points : cfg4.N = 25 := N_4

/-- The layer on all 50000 rows: X · W plus the row B under every row, cut at zero from below. -/
def layer (X : FVec Ideal S50000x192 .f32) (W : FVec Ideal S192x192 .f32) (B : FVec Ideal S1x192 .f32) : FVec Ideal S50000x192 .f32 :=
  affineRelu (M := 50000) (K := 192) (N := 192) (by decide) (by decide) X W B

/-- Row p of the block of point t is row 2000·t + p of the array. -/
def rows (t : Fin cfg4.N) : Fin 2000 → Fin 50000 :=
  blockRow 2000 cfg4.N 50000 (by have := points; omega) t

theorem rows_val (t : Fin cfg4.N) (p : Fin 2000) : (rows t p).val = 2000 * t.val + p.val := rfl

/-- The body's arithmetic on picked rows of X is the picked rows of the layer on X. -/
theorem payload_rows (ρ : Fin 2000 → Fin 50000) (X : FVec Ideal S50000x192 .f32) (W : FVec Ideal S192x192 .f32) (B : FVec Ideal S1x192 .f32) :
    k4_pay1 (F := Ideal) (rowsOf ρ X) W B = rowsOf ρ (layer X W B) := by
  unfold k4_pay1 layer
  exact affineRelu_rows_cast ρ bitsLt_bf16_f32 shapeCasts_S2000x192_S2000x192 shapeCasts_S1x192_S1x192 broadcasts_S1x192_S2000x192 (by decide) (by decide) X W B

/-- The block indices over the grid: the row windows move with the point, the table and the bias row stay. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The first window's block at point t is rows 2000·t … of the input array. -/
theorem block_x (c : Dev nD) (t : Fin cfg4.N) :
    (iblk4 V c 0 t : Vec Ideal S2000x192 .f32) = rowsOf (rows t) (V c main_v58 : S50000x192.Idx → EReal) := by
  obtain ⟨e0, e1, -⟩ := index_facts t
  funext y
  unfold iblk4
  rw [View.read_apply]
  show V c main_v58 (((cfg4.win 0).blk t).view.emb y) = V c main_v58 (ix2 (rows t (y 0)) (y 1))
  refine congrArg (V c main_v58) ?_
  funext a; apply Fin.ext
  match a with
  | ⟨0, _⟩ => show win4_0.index t (0 : Fin 2) * 2000 + 1 * (y 0).val = 2000 * t.val + (y 0).val; rw [e0]; omega
  | ⟨1, _⟩ => show win4_0.index t (1 : Fin 2) * 192 + 1 * (y 1).val = (y 1).val; rw [e1]; omega

/-- The second window's block is the whole table at every point. -/
theorem block_w (c : Dev nD) (t : Fin cfg4.N) : (iblk4 V c 1 t : Vec Ideal S192x192 .f32) = V c main_arg10 := by
  obtain ⟨-, -, e2, e3, -⟩ := index_facts t
  funext y
  unfold iblk4
  rw [View.read_apply]
  show V c main_arg10 (((cfg4.win 1).blk t).view.emb y) = V c main_arg10 y
  refine congrArg (V c main_arg10) ?_
  funext a; apply Fin.ext
  match a with
  | ⟨0, _⟩ => show win4_1.index t (0 : Fin 2) * 192 + 1 * (y 0).val = (y 0).val; rw [e2]; omega
  | ⟨1, _⟩ => show win4_1.index t (1 : Fin 2) * 192 + 1 * (y 1).val = (y 1).val; rw [e3]; omega

/-- The third window's block is the whole bias row at every point. -/
theorem block_b (c : Dev nD) (t : Fin cfg4.N) : (iblk4 V c 2 t : Vec Ideal S1x192 .f32) = V c main_v59 := by
  obtain ⟨-, -, -, -, e4, e5, -⟩ := index_facts t
  funext y
  unfold iblk4
  rw [View.read_apply]
  show V c main_v59 (((cfg4.win 2).blk t).view.emb y) = V c main_v59 y
  refine congrArg (V c main_v59) ?_
  funext a; apply Fin.ext
  match a with
  | ⟨0, _⟩ => show win4_2.index t (0 : Fin 2) * 1 + 1 * (y 0).val = (y 0).val; rw [e4]; omega
  | ⟨1, _⟩ => show win4_2.index t (1 : Fin 2) * 192 + 1 * (y 1).val = (y 1).val; rw [e5]; omega

/-- What point t writes back is block t of the layer of the arrays as the launch found them. -/
theorem flushed_eq (c : Dev nD) (t : Fin cfg4.N) :
    (dat4 (F := Ideal) V c).flushed 3 t
      = ((cfg4.win 3).blk t).view.read (Elt Ideal) (layer (V c main_v58) (V c main_arg10) (V c main_v59)) := by
  show (cfg4.win 3).cut (grid4.coords t) ((dat4 (F := Ideal) V c).after 3 t) = _
  rw [after4_3]
  unfold out4_3
  rw [View.canon_unit_zero zeros]
  simp only [View.ld_unit_zero (S := S2000x192) zeros, View.ld_unit_zero (S := S192x192) zeros, View.ld_unit_zero (S := S1x192) zeros]
  rw [block_x V c t, block_w V c t, block_b V c t, payload_rows]
  obtain ⟨-, -, -, -, -, -, e6, e7⟩ := index_facts t
  funext j
  show layer (V c main_v58) (V c main_arg10) (V c main_v59) (ix2 (rows t (j 0)) (j 1))
    = layer (V c main_v58) (V c main_arg10) (V c main_v59) (((cfg4.win 3).blk t).view.emb j)
  refine congrArg (layer (V c main_v58) (V c main_arg10) (V c main_v59)) ?_
  funext a; apply Fin.ext
  match a with
  | ⟨0, _⟩ => show 2000 * t.val + (j 0).val = win4_3.index t (0 : Fin 2) * 2000 + 1 * (j 0).val; rw [e6]; omega
  | ⟨1, _⟩ => show (j 1).val = win4_3.index t (1 : Fin 2) * 192 + 1 * (j 1).val; rw [e7]; omega

/-- An index of the output array is in point t's block iff each coordinate is in the block's range. -/
theorem mem_block (t : Fin cfg4.N) (i : S50000x192.Idx) :
    i ∈ ((cfg4.win 3).blk t).view.set ↔ ∀ a : Fin 2, win4_3.index t a * S2000x192.size a ≤ (i a).val
      ∧ (i a).val < win4_3.index t a * S2000x192.size a + S2000x192.size a := by
  show i ∈ ((View.whole main_v60).slice (win4_3.rect t)).set ↔ _
  rw [View.set_slice_whole, Rect.mem_set_unit]
  exact Iff.rfl

/-- The point whose block holds row r: r / 2000. -/
def pointOf (i : S50000x192.Idx) : Fin cfg4.N :=
  ⟨(i 0).val / 2000, by have := points; have h : (i 0).val < 50000 := (i 0).isLt; omega⟩

/-- After the launch the output array is the layer of the input array, the table and the bias row as found. -/
theorem final (c : Dev nD) :
    (dat4 (F := Ideal) V c).arrAt 3 cfg4.N = layer (V c main_v58) (V c main_arg10) (V c main_v59) :=
  (dat4 (F := Ideal) V c).arrAt_eq_of_cover 3 _ (fun t _ => flushed_eq V c t) fun (i : S50000x192.Idx) => by
    have h0 : (i 0).val < 50000 := (i 0).isLt
    have h1 : (i 1).val < 192 := (i 1).isLt
    refine ⟨pointOf i, flush4_3 _, ?_⟩
    rw [mem_block]
    obtain ⟨-, -, -, -, -, -, e6, e7⟩ := index_facts (pointOf i)
    have hp : (pointOf i).val = (i 0).val / 2000 := rfl
    intro a
    match a with
    | ⟨0, _⟩ =>
      show win4_3.index (pointOf i) (0 : Fin 2) * 2000 ≤ (i 0).val
        ∧ (i 0).val < win4_3.index (pointOf i) (0 : Fin 2) * 2000 + 2000
      rw [e6, hp]; omega
    | ⟨1, _⟩ =>
      show win4_3.index (pointOf i) (1 : Fin 2) * 192 ≤ (i 1).val
        ∧ (i 1).val < win4_3.index (pointOf i) (1 : Fin 2) * 192 + 192
      rw [e7]; omega

end Cert.KernelIdeal.Region4

end
-- ==== Proof.Region5.lean ====
/-
  Launch 5: a dense layer over 50000 rows, 2000 rows at a grid point.

  The launch has 25 grid points. At point t its first window stages rows 2000·t … 2000·t + 1999 of the 50000 × 192
  input X, its second the whole 192 × 2 table W, its third the whole one-row matrix B, and its fourth writes rows
  2000·t … 2000·t + 1999 of the 50000 × 2 output back. The body computes the layer on the staged rows, which is the
  same rows of the layer computed on all of X (X · W plus the row B under every row). The 25 blocks
  of rows tile the output, so after the launch the output array is the layer of the three arrays as the launch found them.
-/
import proofs.«155925_j35089882808747_1_alg».proof.Proof.Gen.KernelIdeal.Frame
import Idealize.ShloMosaic.Lib.Pipeline.Value
import proofs.«155925_j35089882808747_1_alg».proof.Proof.LibDenseBlock

noncomputable section

namespace Cert.KernelIdeal.Region5

open Cert.KernelIdeal Cert.KernelIdeal.Gen Idealize.ShloMosaic Idealize.ShloMosaic.TcCoe Idealize.SL.Sem
open Idealize.ShloMosaic.Pipeline (Dat)
open Idealize.ShloMosaic.ValueIdx Cert.BlockRows Cert.RowLayers Cert.DenseBlock

variable (V : (c : Dev nD) → (b : Ref sig .tc) → Buf (Elt Ideal) ((c : Thread nD τ).loc b))

theorem zeros : (![0, 0] : Fin 2 → Nat) = fun _ => 0 := funext fun a => by fin_cases a <;> rfl

/-- The grid has 25 points. -/
theorem points : cfg5.N = 25 := N_5

/-- The layer on all 50000 rows: X · W plus the row B under every row. -/
def layer (X : FVec Ideal S50000x192 .f32) (W : FVec Ideal S192x2 .f32) (B : FVec Ideal S1x2 .f32) : FVec Ideal S50000x2 .f32 :=
  affine (M := 50000) (K := 192) (N := 2) (by decide) X W B

/-- Row p of the block of point t is row 2000·t + p of the array. -/
def rows (t : Fin cfg5.N) : Fin 2000 → Fin 50000 :=
  blockRow 2000 cfg5.N 50000 (by have := points; omega) t

theorem rows_val (t : Fin cfg5.N) (p : Fin 2000) : (rows t p).val = 2000 * t.val + p.val := rfl

/-- The body's arithmetic on picked rows of X is the picked rows of the layer on X. -/
theorem payload_rows (ρ : Fin 2000 → Fin 50000) (X : FVec Ideal S50000x192 .f32) (W : FVec Ideal S192x2 .f32) (B : FVec Ideal S1x2 .f32) :
    k5_pay1 (F := Ideal) (rowsOf ρ X) W B = rowsOf ρ (layer X W B) := by
  unfold k5_pay1 layer
  exact affine_rows_cast ρ bitsLt_bf16_f32 shapeCasts_S2000x192_S2000x192 shapeCasts_S1x2_S1x2 broadcasts_S1x2_S2000x2 (by decide) X W B

/-- The block indices over the grid: the row windows move with the point, the table and the bias row stay. -/
theorem index_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The first window's block at point t is rows 2000·t … of the input array. -/
theorem block_x (c : Dev nD) (t : Fin cfg5.N) :
    (iblk5 V c 0 t : Vec Ideal S2000x192 .f32) = rowsOf (rows t) (V c main_v60 : S50000x192.Idx → EReal) := by
  obtain ⟨e0, e1, -⟩ := index_facts t
  funext y
  unfold iblk5
  rw [View.read_apply]
  show V c main_v60 (((cfg5.win 0).blk t).view.emb y) = V c main_v60 (ix2 (rows t (y 0)) (y 1))
  refine congrArg (V c main_v60) ?_
  funext a; apply Fin.ext
  match a with
  | ⟨0, _⟩ => show win5_0.index t (0 : Fin 2) * 2000 + 1 * (y 0).val = 2000 * t.val + (y 0).val; rw [e0]; omega
  | ⟨1, _⟩ => show win5_0.index t (1 : Fin 2) * 192 + 1 * (y 1).val = (y 1).val; rw [e1]; omega

/-- The second window's block is the whole table at every point. -/
theorem block_w (c : Dev nD) (t : Fin cfg5.N) : (iblk5 V c 1 t : Vec Ideal S192x2 .f32) = V c main_arg12 := by
  obtain ⟨-, -, e2, e3, -⟩ := index_facts t
  funext y
  unfold iblk5
  rw [View.read_apply]
  show V c main_arg12 (((cfg5.win 1).blk t).view.emb y) = V c main_arg12 y
  refine congrArg (V c main_arg12) ?_
  funext a; apply Fin.ext
  match a with
  | ⟨0, _⟩ => show win5_1.index t (0 : Fin 2) * 192 + 1 * (y 0).val = (y 0).val; rw [e2]; omega
  | ⟨1, _⟩ => show win5_1.index t (1 : Fin 2) * 2 + 1 * (y 1).val = (y 1).val; rw [e3]; omega

/-- The third window's block is the whole bias row at every point. -/
theorem block_b (c : Dev nD) (t : Fin cfg5.N) : (iblk5 V c 2 t : Vec Ideal S1x2 .f32) = V c main_v61 := by
  obtain ⟨-, -, -, -, e4, e5, -⟩ := index_facts t
  funext y
  unfold iblk5
  rw [View.read_apply]
  show V c main_v61 (((cfg5.win 2).blk t).view.emb y) = V c main_v61 y
  refine congrArg (V c main_v61) ?_
  funext a; apply Fin.ext
  match a with
  | ⟨0, _⟩ => show win5_2.index t (0 : Fin 2) * 1 + 1 * (y 0).val = (y 0).val; rw [e4]; omega
  | ⟨1, _⟩ => show win5_2.index t (1 : Fin 2) * 2 + 1 * (y 1).val = (y 1).val; rw [e5]; omega

/-- What point t writes back is block t of the layer of the arrays as the launch found them. -/
theorem flushed_eq (c : Dev nD) (t : Fin cfg5.N) :
    (dat5 (F := Ideal) V c).flushed 3 t
      = ((cfg5.win 3).blk t).view.read (Elt Ideal) (layer (V c main_v60) (V c main_arg12) (V c main_v61)) := by
  show (cfg5.win 3).cut (grid5.coords t) ((dat5 (F := Ideal) V c).after 3 t) = _
  rw [after5_3]
  unfold out5_3
  rw [View.canon_unit_zero zeros]
  simp only [View.ld_unit_zero (S := S2000x192) zeros, View.ld_unit_zero (S := S192x2) zeros, View.ld_unit_zero (S := S1x2) zeros]
  rw [block_x V c t, block_w V c t, block_b V c t, payload_rows]
  obtain ⟨-, -, -, -, -, -, e6, e7⟩ := index_facts t
  funext j
  show layer (V c main_v60) (V c main_arg12) (V c main_v61) (ix2 (rows t (j 0)) (j 1))
    = layer (V c main_v60) (V c main_arg12) (V c main_v61) (((cfg5.win 3).blk t).view.emb j)
  refine congrArg (layer (V c main_v60) (V c main_arg12) (V c main_v61)) ?_
  funext a; apply Fin.ext
  match a with
  | ⟨0, _⟩ => show 2000 * t.val + (j 0).val = win5_3.index t (0 : Fin 2) * 2000 + 1 * (j 0).val; rw [e6]; omega
  | ⟨1, _⟩ => show (j 1).val = win5_3.index t (1 : Fin 2) * 2 + 1 * (j 1).val; rw [e7]; omega

/-- An index of the output array is in point t's block iff each coordinate is in the block's range. -/
theorem mem_block (t : Fin cfg5.N) (i : S50000x2.Idx) :
    i ∈ ((cfg5.win 3).blk t).view.set ↔ ∀ a : Fin 2, win5_3.index t a * S2000x2.size a ≤ (i a).val
      ∧ (i a).val < win5_3.index t a * S2000x2.size a + S2000x2.size a := by
  show i ∈ ((View.whole main_v62).slice (win5_3.rect t)).set ↔ _
  rw [View.set_slice_whole, Rect.mem_set_unit]
  exact Iff.rfl

/-- The point whose block holds row r: r / 2000. -/
def pointOf (i : S50000x2.Idx) : Fin cfg5.N :=
  ⟨(i 0).val / 2000, by have := points; have h : (i 0).val < 50000 := (i 0).isLt; omega⟩

/-- After the launch the output array is the layer of the input array, the table and the bias row as found. -/
theorem final (c : Dev nD) :
    (dat5 (F := Ideal) V c).arrAt 3 cfg5.N = layer (V c main_v60) (V c main_arg12) (V c main_v61) :=
  (dat5 (F := Ideal) V c).arrAt_eq_of_cover 3 _ (fun t _ => flushed_eq V c t) fun (i : S50000x2.Idx) => by
    have h0 : (i 0).val < 50000 := (i 0).isLt
    have h1 : (i 1).val < 2 := (i 1).isLt
    refine ⟨pointOf i, flush5_3 _, ?_⟩
    rw [mem_block]
    obtain ⟨-, -, -, -, -, -, e6, e7⟩ := index_facts (pointOf i)
    have hp : (pointOf i).val = (i 0).val / 2000 := rfl
    intro a
    match a with
    | ⟨0, _⟩ =>
      show win5_3.index (pointOf i) (0 : Fin 2) * 2000 ≤ (i 0).val
        ∧ (i 0).val < win5_3.index (pointOf i) (0 : Fin 2) * 2000 + 2000
      rw [e6, hp]; omega
    | ⟨1, _⟩ =>
      show win5_3.index (pointOf i) (1 : Fin 2) * 2 ≤ (i 1).val
        ∧ (i 1).val < win5_3.index (pointOf i) (1 : Fin 2) * 2 + 2
      rw [e7]; omega

end Cert.KernelIdeal.Region5

end
-- ==== Proof.LayerHost.lean ====
/-
  Each launch's layer in the host's spelling.

  A launch computes X · W plus a bias row under every row (and, for four of the six, the maximum with zero). Its bias
  row is a vector of N numbers reshaped to one row; the host lays the same vector as a row by a broadcast along its
  one axis, which is the same row. With that, the layer is term for term what the host writes: a plain matrix product,
  the vector laid as a row and the row laid down all rows, their sum, and the maximum with a zero broadcast from rank
  zero.
-/
import proofs.«155925_j35089882808747_1_alg».proof.Proof.Region0
import proofs.«155925_j35089882808747_1_alg».proof.Proof.Region1
import proofs.«155925_j35089882808747_1_alg».proof.Proof.Region2
import proofs.«155925_j35089882808747_1_alg».proof.Proof.Region3
import proofs.«155925_j35089882808747_1_alg».proof.Proof.Region4
import proofs.«155925_j35089882808747_1_alg».proof.Proof.Region5
import proofs.«155925_j35089882808747_1_alg».proof.Proof.Gen.ReferenceIdeal

noncomputable section

namespace Cert.KernelIdeal.LayerHost

open Cert.KernelIdeal Cert.KernelIdeal.Gen Idealize.ShloMosaic Idealize.ShloMosaic.ValueIdx Cert.BlockRows Cert.RowLayers Cert.DenseBlock

/-- Launch 0's layer with its bias row a reshaped vector is the host's spelling of the layer: the plain product, the
    vector laid as a row and down all rows. -/
theorem layer0_host (X : FVec Ideal S800000x32 .f32) (W : FVec Ideal S32x32 .f32) (b : FVec Ideal S32 .f32) :
    Region0.layer X W (shapeCast S1x32 b shapeCasts_S32_S1x32)
      = addf (Host.dotGeneral (F := Ideal) Cert.ReferenceIdeal.dot_S800000x32_S32x32_S800000x32_1_0_0_1_n_n none X W)
          (broadcastInDim Cert.ReferenceIdeal.S800000x32 ![0, 1] (by decide) (broadcastInDim Cert.ReferenceIdeal.S1x32 ![1] (by decide) b)) := by
  unfold Region0.layer affine propagate rowBias
  rw [reshape_row (N := 32) b shapeCasts_S32_S1x32 (by decide)]
  rfl

/-- Launch 1's layer with its bias row a reshaped vector is the host's spelling of the layer: the plain product, the
    vector laid as a row and down all rows, the maximum with a zero broadcast from rank zero. -/
theorem layer1_host (X : FVec Ideal S50000x64 .f32) (W : FVec Ideal S64x96 .f32) (b : FVec Ideal S96 .f32) :
    Region1.layer X W (shapeCast S1x96 b shapeCasts_S96_S1x96)
      = maximumf
        (addf (Host.dotGeneral (F := Ideal) Cert.ReferenceIdeal.dot_S50000x64_S64x96_S50000x96_1_0_0_1_n_n none X W)
          (broadcastInDim Cert.ReferenceIdeal.S50000x96 ![0, 1] (by decide) (broadcastInDim Cert.ReferenceIdeal.S1x96 ![1] (by decide) b)))
        (broadcastInDim Cert.ReferenceIdeal.S50000x96 ![] (by decide) (constant Cert.ReferenceIdeal.S_ .f32 0x00000000#32)) := by
  unfold Region1.layer affineRelu relu affine propagate rowBias
  rw [reshape_row (N := 96) b shapeCasts_S96_S1x96 (by decide)]
  rfl

/-- Launch 2's layer with its bias row a reshaped vector is the host's spelling of the layer: the plain product, the
    vector laid as a row and down all rows, the maximum with a zero broadcast from rank zero. -/
theorem layer2_host (X : FVec Ideal S50000x128 .f32) (W : FVec Ideal S128x192 .f32) (b : FVec Ideal S192 .f32) :
    Region2.layer X W (shapeCast S1x192 b shapeCasts_S192_S1x192)
      = maximumf
        (addf (Host.dotGeneral (F := Ideal) Cert.ReferenceIdeal.dot_S50000x128_S128x192_S50000x192_1_0_0_1_n_n none X W)
          (broadcastInDim Cert.ReferenceIdeal.S50000x192 ![0, 1] (by decide) (broadcastInDim Cert.ReferenceIdeal.S1x192 ![1] (by decide) b)))
        (broadcastInDim Cert.ReferenceIdeal.S50000x192 ![] (by decide) (constant Cert.ReferenceIdeal.S_ .f32 0x00000000#32)) := by
  unfold Region2.layer affineRelu relu affine propagate rowBias
  rw [reshape_row (N := 192) b shapeCasts_S192_S1x192 (by decide)]
  rfl

/-- Launch 3's layer with its bias row a reshaped vector is the host's spelling of the layer: the plain product, the
    vector laid as a row and down all rows, the maximum with a zero broadcast from rank zero. -/
theorem layer3_host (X : FVec Ideal S50000x192 .f32) (W : FVec Ideal S192x192 .f32) (b : FVec Ideal S192 .f32) :
    Region3.layer X W (shapeCast S1x192 b shapeCasts_S192_S1x192)
      = maximumf
        (addf (Host.dotGeneral (F := Ideal) Cert.ReferenceIdeal.dot_S50000x192_S192x192_S50000x192_1_0_0_1_n_n none X W)
          (broadcastInDim Cert.ReferenceIdeal.S50000x192 ![0, 1] (by decide) (broadcastInDim Cert.ReferenceIdeal.S1x192 ![1] (by decide) b)))
        (broadcastInDim Cert.ReferenceIdeal.S50000x192 ![] (by decide) (constant Cert.ReferenceIdeal.S_ .f32 0x00000000#32)) := by
  unfold Region3.layer affineRelu relu affine propagate rowBias
  rw [reshape_row (N := 192) b shapeCasts_S192_S1x192 (by decide)]
  rfl

/-- Launch 4's layer with its bias row a reshaped vector is the host's spelling of the layer: the plain product, the
    vector laid as a row and down all rows, the maximum with a zero broadcast from rank zero. -/
theorem layer4_host (X : FVec Ideal S50000x192 .f32) (W : FVec Ideal S192x192 .f32) (b : FVec Ideal S192 .f32) :
    Region4.layer X W (shapeCast S1x192 b shapeCasts_S192_S1x192)
      = maximumf
        (addf (Host.dotGeneral (F := Ideal) Cert.ReferenceIdeal.dot_S50000x192_S192x192_S50000x192_1_0_0_1_n_n none X W)
          (broadcastInDim Cert.ReferenceIdeal.S50000x192 ![0, 1] (by decide) (broadcastInDim Cert.ReferenceIdeal.S1x192 ![1] (by decide) b)))
        (broadcastInDim Cert.ReferenceIdeal.S50000x192 ![] (by decide) (constant Cert.ReferenceIdeal.S_ .f32 0x00000000#32)) := by
  unfold Region4.layer affineRelu relu affine propagate rowBias
  rw [reshape_row (N := 192) b shapeCasts_S192_S1x192 (by decide)]
  rfl

/-- Launch 5's layer with its bias row a reshaped vector is the host's spelling of the layer: the plain product, the
    vector laid as a row and down all rows. -/
theorem layer5_host (X : FVec Ideal S50000x192 .f32) (W : FVec Ideal S192x2 .f32) (b : FVec Ideal S2 .f32) :
    Region5.layer X W (shapeCast S1x2 b shapeCasts_S2_S1x2)
      = addf (Host.dotGeneral (F := Ideal) Cert.ReferenceIdeal.dot_S50000x192_S192x2_S50000x2_1_0_0_1_n_n none X W)
          (broadcastInDim Cert.ReferenceIdeal.S50000x2 ![0, 1] (by decide) (broadcastInDim Cert.ReferenceIdeal.S1x2 ![1] (by decide) b)) := by
  unfold Region5.layer affine propagate rowBias
  rw [reshape_row (N := 2) b shapeCasts_S2_S1x2 (by decide)]
  rfl

end Cert.KernelIdeal.LayerHost

end
-- ==== Proof.ChainA.lean ====
/-
  The idealized kernel's buffers hold the reference's values.

  Launch by launch: the launch's three input arrays are found by walking the fold of buffer contents back (an
  argument as launched; a bias vector reshaped to a row; for the later launches what the host operations in between
  make of earlier outputs), the launch leaves in its output array its layer of those three, and that layer is, in the
  host's spelling, the reference's own operations on the same values. The host operations between launches are the
  same operations in both programs, so each launch's output is the reference's value at the same place of its
  program, as a function of the arguments.
-/
import proofs.«155925_j35089882808747_1_alg».proof.Proof.Walk
import proofs.«155925_j35089882808747_1_alg».proof.Proof.LayerHost
import proofs.«155925_j35089882808747_1_alg».proof.Proof.Gen.ReferenceIdeal.Read

noncomputable section

namespace Cert.KernelIdeal.Chain

open Cert.KernelIdeal Cert.KernelIdeal.Gen Idealize.ShloMosaic Idealize.ShloMosaic.TcCoe Idealize.SL.Sem
open Idealize.ShloMosaic.StableHlo
open Cert.KernelIdeal.Walk Cert.KernelIdeal.LayerHost Cert.ReferenceIdeal.Read

variable (m : (ℓ : Loc nD τ sig) → Buf (Elt Ideal) ℓ) (ρ : Dev nD → PrngReg)

/-! ## Launch 0 -/

/-- The launch finds its input array as launched. -/
theorem in0_x (c : Dev nD) : V5 m ρ c main_arg1 = (m ((c : Thread nD τ).loc main_arg1)) := by
  walk_back

/-- The launch finds its table as launched. -/
theorem in0_w (c : Dev nD) : V5 m ρ c main_arg4 = (m ((c : Thread nD τ).loc main_arg4)) := by
  walk_back

/-- The launch finds as its bias row the bias vector reshaped to one row. -/
theorem in0_b (c : Dev nD) : V5 m ρ c main_v11 = shapeCast S1x32 (m ((c : Thread nD τ).loc main_arg5)) shapeCasts_S32_S1x32 := by
  walk_back <;> rfl

/-- After the launch its output array holds the reference's value at the same place of its program. -/
theorem out0 (c : Dev nD) : W6 m ρ c (Proc.devRef .tc main_v12) = val_main_v14 (m ((c : Thread nD τ).loc main_arg1)) (m ((c : Thread nD τ).loc main_arg4)) (m ((c : Thread nD τ).loc main_arg5)) := by
  refine (W6_arr m ρ c 3).trans ((Region0.final (V5 m ρ) c).trans ?_)
  rw [in0_x m ρ c, in0_w m ρ c, in0_b m ρ c, layer0_host]
  unfold val_main_v14 val_main_v13 val_main_v12 val_main_v11
  rfl

/-! ## Launch 1 -/

/-- The launch finds its input array as launched. -/
theorem in1_x (c : Dev nD) : V9 m ρ c main_arg0 = (m ((c : Thread nD τ).loc main_arg0)) := by
  walk_back

/-- The launch finds its table as launched. -/
theorem in1_w (c : Dev nD) : V9 m ρ c main_arg2 = (m ((c : Thread nD τ).loc main_arg2)) := by
  walk_back

/-- The launch finds as its bias row the bias vector reshaped to one row. -/
theorem in1_b (c : Dev nD) : V9 m ρ c main_v20 = shapeCast S1x96 (m ((c : Thread nD τ).loc main_arg3)) shapeCasts_S96_S1x96 := by
  walk_back <;> rfl

/-- After the launch its output array holds the reference's value at the same place of its program. -/
theorem out1 (c : Dev nD) : W10 m ρ c (Proc.devRef .tc main_v21) = val_main_v26 (m ((c : Thread nD τ).loc main_arg0)) (m ((c : Thread nD τ).loc main_arg2)) (m ((c : Thread nD τ).loc main_arg3)) := by
  refine (W10_arr m ρ c 3).trans ((Region1.final (V9 m ρ) c).trans ?_)
  rw [in1_x m ρ c, in1_w m ρ c, in1_b m ρ c, layer1_host]
  unfold val_main_v26 val_main_call3_v0 val_main_call3_cst val_main_v25 val_main_v24 val_main_v23 val_main_v22
  rfl

/-- The edge features summed onto their destination nodes, averaged and cut at zero, as the host operations between
    the first two launches leave them: the reference's value at the same place. -/
theorem edge1 (c : Dev nD) : W10 m ρ c (Proc.devRef .tc main_v19) = val_main_v21 (m ((c : Thread nD τ).loc main_arg1)) (m ((c : Thread nD τ).loc main_arg4)) (m ((c : Thread nD τ).loc main_arg5)) (m ((c : Thread nD τ).loc main_arg15)) := by
  walk_back
  rw [out0 m ρ c]
  unfold val_main_v21 val_main_call2_v0 val_main_call2_cst val_main_v20 val_main_v19 val_main_v18 val_main_v17 val_main_v16 val_main_v15 val_main_cst_4 val_main_v4 val_main_call0_v1 val_main_call0_v0 val_main_cst_1 val_main_v3 val_main_v2 val_main_v1 val_main_cst_0 val_main_v0 val_main_cst
  rfl

end Cert.KernelIdeal.Chain

end
-- ==== Proof.ChainB.lean ====
/-
  The idealized kernel's buffers hold the reference's values.

  Launch by launch: the launch's three input arrays are found by walking the fold of buffer contents back (an
  argument as launched; a bias vector reshaped to a row; for the later launches what the host operations in between
  make of earlier outputs), the launch leaves in its output array its layer of those three, and that layer is, in the
  host's spelling, the reference's own operations on the same values. The host operations between launches are the
  same operations in both programs, so each launch's output is the reference's value at the same place of its
  program, as a function of the arguments.
-/
import proofs.«155925_j35089882808747_1_alg».proof.Proof.ChainA

noncomputable section

namespace Cert.KernelIdeal.Chain

open Cert.KernelIdeal Cert.KernelIdeal.Gen Idealize.ShloMosaic Idealize.ShloMosaic.TcCoe Idealize.SL.Sem
open Idealize.ShloMosaic.StableHlo
open Cert.KernelIdeal.Walk Cert.KernelIdeal.LayerHost Cert.ReferenceIdeal.Read

variable (m : (ℓ : Loc nD τ sig) → Buf (Elt Ideal) ℓ) (ρ : Dev nD → PrngReg)

/-! ## Launch 2 -/

/-- The launch finds in its input array what the host operations before it make of the earlier launches' outputs:
    the reference's value at the same place of its program. -/
theorem in2_x (c : Dev nD) : V11 m ρ c main_v38 = val_main_v43 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) := by
  walk_back
  rw [edge1 m ρ c, out1 m ρ c]
  unfold val_main_v43 val_main_v42 val_main_v41 val_main_v40 val_main_v39 val_main_v38 val_main_cst_6 val_main_v37 val_main_v36 val_main_v35 val_main_v34 val_main_v33 val_main_c_5 val_main_v32 val_main_v31 val_main_c val_main_v30 val_main_v29 val_main_v28 val_main_v27 val_main_v10 val_main_v9 val_main_v8 val_main_call1_v1 val_main_call1_v0 val_main_cst_3 val_main_v7 val_main_v6 val_main_v5 val_main_cst_2 val_main_v4 val_main_call0_v1 val_main_call0_v0 val_main_cst_1 val_main_v3 val_main_v2 val_main_v1 val_main_cst_0 val_main_v0 val_main_cst
  rfl

/-- The launch finds its table as launched. -/
theorem in2_w (c : Dev nD) : V11 m ρ c main_arg6 = (m ((c : Thread nD τ).loc main_arg6)) := by
  walk_back

/-- The launch finds as its bias row the bias vector reshaped to one row. -/
theorem in2_b (c : Dev nD) : V11 m ρ c main_v39 = shapeCast S1x192 (m ((c : Thread nD τ).loc main_arg7)) shapeCasts_S192_S1x192 := by
  walk_back <;> rfl

/-- After the launch its output array holds the reference's value at the same place of its program. -/
theorem out2 (c : Dev nD) : W12 m ρ c (Proc.devRef .tc main_v40) = val_main_v48 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15)) := by
  refine (W12_arr m ρ c 3).trans ((Region2.final (V11 m ρ) c).trans ?_)
  rw [in2_x m ρ c, in2_w m ρ c, in2_b m ρ c, layer2_host]
  unfold val_main_v48 val_main_call4_v0 val_main_call4_cst val_main_v47 val_main_v46 val_main_v45 val_main_v44
  rfl

/-! ## Launch 3 -/

/-- The launch finds in its input array what the host operations before it make of the earlier launches' outputs:
    the reference's value at the same place of its program. -/
theorem in3_x (c : Dev nD) : V13 m ρ c main_v56 = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15)) := by
  walk_back
  rw [out2 m ρ c]
  unfold val_main_v64 val_main_v63 val_main_v62 val_main_v61 val_main_v60 val_main_v59 val_main_cst_9 val_main_v58 val_main_v57 val_main_v56 val_main_v55 val_main_v54 val_main_c_8 val_main_v53 val_main_v52 val_main_c_7 val_main_v51 val_main_v50 val_main_v49 val_main_v10 val_main_v9 val_main_v8 val_main_call1_v1 val_main_call1_v0 val_main_cst_3 val_main_v7 val_main_v6 val_main_v5 val_main_cst_2 val_main_v4 val_main_call0_v1 val_main_call0_v0 val_main_cst_1 val_main_v3 val_main_v2 val_main_v1 val_main_cst_0 val_main_v0 val_main_cst
  rfl

/-- The launch finds its table as launched. -/
theorem in3_w (c : Dev nD) : V13 m ρ c main_arg8 = (m ((c : Thread nD τ).loc main_arg8)) := by
  walk_back

/-- The launch finds as its bias row the bias vector reshaped to one row. -/
theorem in3_b (c : Dev nD) : V13 m ρ c main_v57 = shapeCast S1x192 (m ((c : Thread nD τ).loc main_arg9)) shapeCasts_S192_S1x192 := by
  walk_back <;> rfl

/-- After the launch its output array holds the reference's value at the same place of its program. -/
theorem out3 (c : Dev nD) : W14 m ρ c (Proc.devRef .tc main_v58) = val_main_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) := by
  refine (W14_arr m ρ c 3).trans ((Region3.final (V13 m ρ) c).trans ?_)
  rw [in3_x m ρ c, in3_w m ρ c, in3_b m ρ c, layer3_host]
  unfold val_main_v69 val_main_call5_v0 val_main_call5_cst val_main_v68 val_main_v67 val_main_v66 val_main_v65
  rfl

/-! ## Launch 4 -/

/-- The launch finds in its input array the previous launch's output. -/
theorem in4_x (c : Dev nD) : V15 m ρ c main_v58 = val_main_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) := by
  walk_back
  exact out3 m ρ c

/-- The launch finds its table as launched. -/
theorem in4_w (c : Dev nD) : V15 m ρ c main_arg10 = (m ((c : Thread nD τ).loc main_arg10)) := by
  walk_back

/-- The launch finds as its bias row the bias vector reshaped to one row. -/
theorem in4_b (c : Dev nD) : V15 m ρ c main_v59 = shapeCast S1x192 (m ((c : Thread nD τ).loc main_arg11)) shapeCasts_S192_S1x192 := by
  walk_back <;> rfl

/-- After the launch its output array holds the reference's value at the same place of its program. -/
theorem out4 (c : Dev nD) : W16 m ρ c (Proc.devRef .tc main_v60) = val_main_v74 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) := by
  refine (W16_arr m ρ c 3).trans ((Region4.final (V15 m ρ) c).trans ?_)
  rw [in4_x m ρ c, in4_w m ρ c, in4_b m ρ c, layer4_host]
  unfold val_main_v74 val_main_call6_v0 val_main_call6_cst val_main_v73 val_main_v72 val_main_v71 val_main_v70
  rfl

/-! ## Launch 5 -/

/-- The launch finds in its input array the previous launch's output. -/
theorem in5_x (c : Dev nD) : V17 m ρ c main_v60 = val_main_v74 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) := by
  walk_back
  exact out4 m ρ c

/-- The launch finds its table as launched. -/
theorem in5_w (c : Dev nD) : V17 m ρ c main_arg12 = (m ((c : Thread nD τ).loc main_arg12)) := by
  walk_back

/-- The launch finds as its bias row the bias vector reshaped to one row. -/
theorem in5_b (c : Dev nD) : V17 m ρ c main_v61 = shapeCast S1x2 (m ((c : Thread nD τ).loc main_arg13)) shapeCasts_S2_S1x2 := by
  walk_back <;> rfl

/-- After the launch its output array holds the reference's value at the same place of its program. -/
theorem out5 (c : Dev nD) : W18 m ρ c (Proc.devRef .tc main_v62) = val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W18_arr m ρ c 3).trans ((Region5.final (V17 m ρ) c).trans ?_)
  rw [in5_x m ρ c, in5_w m ρ c, in5_b m ρ c, layer5_host]
  unfold val_main_v78 val_main_v77 val_main_v76 val_main_v75
  rfl

end Cert.KernelIdeal.Chain

end
-- ==== Proof.lean ====
/-
  A graph network's forward pass: six dense layers computed by tiled launches against the same layers written as
  plain matrix products, with identical gathers, scatter-additions and degree scalings between them.

  Both programs count each node's incoming and outgoing edges (a scatter-addition of ones, cut at one from below),
  take the inverse square roots, apply a dense layer to every edge's features and sum the results onto destination
  nodes, divide by the in-degree and cut at zero; apply a dense layer with a cut at zero to every node's features; join
  the two; twice scale by the out-degree factor, gather rows by source node, sum onto destination nodes, scale by the
  in-degree factor and apply a dense layer with a cut at zero; then a dense layer with a cut at zero and a last dense
  layer. The reference writes each dense layer as X · W + b (and a maximum with zero); the kernel computes it block of
  rows by block of rows on the matrix unit, from operands narrowed to a shorter float format. On the extended reals the
  narrowing is the identity and the matrix unit's product into zeros is the plain sum of products, so each block is the
  same rows of the host's layer, the blocks tile the output, and every launch's output is the reference's value at the
  same place of its program. No law of arithmetic is needed beyond that: the two results are one term of the
  arguments, and finiteness of the inputs is never used.

  The three frames: the two kernel programs' are the generated ones; the reference's is its generated run with the
  result dropped. The idealization rewrote nothing, so it is preserved trivially.
-/
import proofs.«155925_j35089882808747_1_alg».proof.Defs
import proofs.«155925_j35089882808747_1_alg».proof.Proof.Gen.Kernel
import proofs.«155925_j35089882808747_1_alg».proof.Proof.Gen.Kernel.Frame
import proofs.«155925_j35089882808747_1_alg».proof.Proof.Gen.KernelIdeal
import proofs.«155925_j35089882808747_1_alg».proof.Proof.Gen.KernelIdeal.Frame
import proofs.«155925_j35089882808747_1_alg».proof.Proof.Gen.ReferenceIdeal
import proofs.«155925_j35089882808747_1_alg».proof.Proof.Gen.Pre_finite_inputs
import proofs.«155925_j35089882808747_1_alg».proof.Proof.Gen.ReferenceIdeal.Run
import proofs.«155925_j35089882808747_1_alg».proof.Proof.Gen.ReferenceIdeal.Read
import proofs.«155925_j35089882808747_1_alg».proof.Proof.KernelRun
import proofs.«155925_j35089882808747_1_alg».proof.Proof.ChainB
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the reference's last
    value as a function of the arguments. The kernel's result buffer holds it by the walk through its six launches;
    the reference's by its own run. -/
theorem algebraic : Cert.algebraic_KernelIdeal_ReferenceIdeal := by
  intro m ρ m' ρ' _ hagree
  refine ⟨fun c => Cert.ReferenceIdeal.Read.val_main_v78 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.out5 m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v78_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
